-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x256x256 : Shape := ⟨4, ![32, 8, 256, 256]⟩
abbrev S32x1x512x512 : Shape := ⟨4, ![32, 1, 512, 512]⟩
abbrev S_ : Shape := ⟨0, ![]⟩

class Facts : Prop where
  bcast_S_S32x8x256x256 : S_.BroadcastsInDim S32x8x256x256 (![] : Fin 0 → Fin S32x8x256x256.rank)
  reducesTo_S32x8x256x256_S_d0_1_2_3 : S32x8x256x256.ReducesTo [0, 1, 2, 3] S_
  h_S_ : 0 < S_.numel
  bcast_S_S32x1x512x512 : S_.BroadcastsInDim S32x1x512x512 (![] : Fin 0 → Fin S32x1x512x512.rank)
  reducesTo_S32x1x512x512_S_d0_1_2_3 : S32x1x512x512.ReducesTo [0, 1, 2, 3] S_

variable [Facts]

def fn {F : FTy → Type} [FloatOps F] (main_arg0 : FVec F S32x8x256x256 .f32) (main_arg1 : FVec F S32x1x512x512 .f32) : IVec S_ 1 :=
  let main_v0 : FVec F S32x8x256x256 .f32 := Host.absf main_arg0
  let main_cst : FVec F S_ .f32 := constant S_ .f32 0x7F800000#32
  let main_v1 : FVec F S32x8x256x256 .f32 := broadcastInDim S32x8x256x256 ![] bcast_S_S32x8x256x256 main_cst
  let main_v2 : IVec S32x8x256x256 1 := cmpf .olt main_v0 main_v1
  let main_c : IVec S_ 1 := constantI S_ 1 1#1
  let main_v3 : IVec S_ 1 := (fun x v => Host.reduce IntOp.andi x v reducesTo_S32x8x256x256_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  main_v8
-- ==== Kernel.lean ====
abbrev S32x8x256x256 : Shape := ⟨4, ![32, 8, 256, 256]⟩
abbrev S32x1x512x512 : Shape := ⟨4, ![32, 1, 512, 512]⟩
abbrev S32x1x256x2x256x2 : Shape := ⟨6, ![32, 1, 256, 2, 256, 2]⟩
abbrev S_ : Shape := ⟨0, ![]⟩
abbrev S32x1x256x256 : Shape := ⟨4, ![32, 1, 256, 256]⟩
abbrev S64x128 : Shape := ⟨2, ![64, 128]⟩
abbrev S4x8x256x256 : Shape := ⟨4, ![4, 8, 256, 256]⟩
abbrev S4x1x256x256 : Shape := ⟨4, ![4, 1, 256, 256]⟩
abbrev S8x128 : Shape := ⟨2, ![8, 128]⟩
abbrev S4x256x256 : Shape := ⟨3, ![4, 256, 256]⟩
abbrev S256x256 : Shape := ⟨2, ![256, 256]⟩
abbrev S1x256x256 : Shape := ⟨3, ![1, 256, 256]⟩
abbrev S1x256 : Shape := ⟨2, ![1, 256]⟩
abbrev S1x256x1 : Shape := ⟨3, ![1, 256, 1]⟩
abbrev S1x1 : Shape := ⟨2, ![1, 1]⟩
abbrev S1x1x1 : Shape := ⟨3, ![1, 1, 1]⟩

abbrev nBuf : Space → Nat
  | .hbm => 10
  | .vmem => 6
  | .smem => 0
  | _ => 0

abbrev bufTy : (tb : Table) → Fin (tcTables nBuf tb) → BufTy
  | .hbm, ⟨0, _⟩ => ⟨S32x8x256x256, .f32⟩
  | .hbm, ⟨1, _⟩ => ⟨S32x1x512x512, .f32⟩
  | .hbm, ⟨2, _⟩ => ⟨S32x1x256x2x256x2, .f32⟩
  | .hbm, ⟨3, _⟩ => ⟨S_, .f32⟩
  | .hbm, ⟨4, _⟩ => ⟨S32x1x256x256, .f32⟩
  | .hbm, ⟨5, _⟩ => ⟨S64x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4x8x256x256, .f32⟩
  | .local _ .vmem, ⟨1, _⟩ => ⟨S4x8x256x256, .f32⟩
  | .local _ .vmem, ⟨2, _⟩ => ⟨S4x1x256x256, .f32⟩
  | .local _ .vmem, ⟨3, _⟩ => ⟨S4x1x256x256, .f32⟩
  | .local _ .vmem, ⟨4, _⟩ => ⟨S8x128, .f32⟩
  | .local _ .vmem, ⟨5, _⟩ => ⟨S8x128, .f32⟩
  | _, _ => ⟨S32x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x1x512x512_S32x1x256x2x256x2 : S32x1x512x512.ShapeCasts S32x1x256x2x256x2
  reducesTo_S32x1x256x2x256x2_S32x1x256x256_d3_5 : S32x1x256x2x256x2.ReducesTo [3, 5] S32x1x256x256
  h_S_ : 0 < S_.numel
  inb_S4x1x256x256_S4x1x256x256_0_0_0_0 : ∀ a, (![0, 0, 0, 0] : Fin 4 → Nat) a + S4x1x256x256.size a ≤ S4x1x256x256.size a
  h_S4x1x256x256 : 0 < S4x1x256x256.numel
  shapeCasts_S4x1x256x256_S4x256x256 : S4x1x256x256.ShapeCasts S4x256x256
  natLt_1_32 : 1 < 32
  inb_S4x8x256x256_S4x1x256x256_0_0_0_0 : ∀ a, (![0, 0, 0, 0] : Fin 4 → Nat) a + S4x1x256x256.size a ≤ S4x8x256x256.size a
  inb_S4x8x256x256_S4x1x256x256_0_1_0_0 : ∀ a, (![0, 1, 0, 0] : Fin 4 → Nat) a + S4x1x256x256.size a ≤ S4x8x256x256.size a
  inb_S4x8x256x256_S4x1x256x256_0_2_0_0 : ∀ a, (![0, 2, 0, 0] : Fin 4 → Nat) a + S4x1x256x256.size a ≤ S4x8x256x256.size a
  inb_S4x8x256x256_S4x1x256x256_0_3_0_0 : ∀ a, (![0, 3, 0, 0] : Fin 4 → Nat) a + S4x1x256x256.size a ≤ S4x8x256x256.size a
  inb_S4x8x256x256_S4x1x256x256_0_4_0_0 : ∀ a, (![0, 4, 0, 0] : Fin 4 → Nat) a + S4x1x256x256.size a ≤ S4x8x256x256.size a
  inb_S4x8x256x256_S4x1x256x256_0_5_0_0 : ∀ a, (![0, 5, 0, 0] : Fin 4 → Nat) a + S4x1x256x256.size a ≤ S4x8x256x256.size a
  inb_S4x8x256x256_S4x1x256x256_0_6_0_0 : ∀ a, (![0, 6, 0, 0] : Fin 4 → Nat) a + S4x1x256x256.size a ≤ S4x8x256x256.size a
  inb_S4x8x256x256_S4x1x256x256_0_7_0_0 : ∀ a, (![0, 7, 0, 0] : Fin 4 → Nat) a + S4x1x256x256.size a ≤ S4x8x256x256.size a
  reduces_S4x256x256_S256x256 : S4x256x256.Reduces [0] S256x256
  shapeCasts_S256x256_S1x256x256 : S256x256.ShapeCasts S1x256x256
  reduces_S1x256x256_S1x256 : S1x256x256.Reduces [2] S1x256
  shapeCasts_S1x256_S1x256x1 : S1x256.ShapeCasts S1x256x1
  reduces_S1x256x1_S1x1 : S1x256x1.Reduces [1] S1x1
  shapeCasts_S1x1_S1x1x1 : S1x1.ShapeCasts S1x1x1
  shapeCasts_S1x1x1_S1x1 : S1x1x1.ShapeCasts S1x1
  shapeCasts_S1x1_S1x1 : S1x1.ShapeCasts S1x1
  broadcasts_S1x1_S8x128 : S1x1.Broadcasts S8x128
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S64x128_S_d0_1 : S64x128.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x256x256.size a ≤ S32x8x256x256.size a
  hwx0_0 : ∀ i : grid0.Coords, EltTy.bits .f32 = 32 ∨ (Rect.block (s := S32x8x256x256) S4x8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1x256x256.size a ≤ S32x1x256x256.size a
  hwx0_1 : ∀ i : grid0.Coords, EltTy.bits .f32 = 32 ∨ (Rect.block (s := S32x1x256x256) S4x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S64x128.size a
  hwx0_2 : ∀ i : grid0.Coords, EltTy.bits .f32 = 32 ∨ (Rect.block (s := S64x128) S8x128.size (cc0_transform_2 i) (hinb0_2 i)).WholeWords (EltTy.packing .f32)

variable [Facts₀]

abbrev win0_0 : Pipeline.Window sig grid0 :=
  Pipeline.Window.ofSpec (Memref.whole main_arg0) S4x8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x8x256x256 : Shape := ⟨4, ![32, 8, 256, 256]⟩
abbrev S32x1x512x512 : Shape := ⟨4, ![32, 1, 512, 512]⟩
abbrev S8 : Shape := ⟨1, ![8]⟩
abbrev S32x1x256x2x256x2 : Shape := ⟨6, ![32, 1, 256, 2, 256, 2]⟩
abbrev S_ : Shape := ⟨0, ![]⟩
abbrev S32x1x256x256 : Shape := ⟨4, ![32, 1, 256, 256]⟩
abbrev S32x256x256 : Shape := ⟨3, ![32, 256, 256]⟩
abbrev S32x256x256x1 : Shape := ⟨4, ![32, 256, 256, 1]⟩
abbrev S1x1x1x8 : Shape := ⟨4, ![1, 1, 1, 8]⟩
abbrev S32x256x256x8 : Shape := ⟨4, ![32, 256, 256, 8]⟩
abbrev S32x256x256x1x1 : Shape := ⟨5, ![32, 256, 256, 1, 1]⟩
abbrev S1 : Shape := ⟨1, ![1]⟩
abbrev S1x1x1x1x1 : Shape := ⟨5, ![1, 1, 1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S32x8x256x256, .f32⟩
  | .hbm, ⟨1, _⟩ => ⟨S32x1x512x512, .f32⟩
  | .hbm, ⟨2, _⟩ => ⟨S8, .f32⟩
  | .hbm, ⟨3, _⟩ => ⟨S8, .f32⟩
  | .hbm, ⟨4, _⟩ => ⟨S32x1x256x2x256x2, .f32⟩
  | .hbm, ⟨5, _⟩ => ⟨S_, .f32⟩
  | .hbm, ⟨6, _⟩ => ⟨S32x1x256x256, .f32⟩
  | .hbm, ⟨7, _⟩ => ⟨S32x256x256, .f32⟩
  | .hbm, ⟨8, _⟩ => ⟨S32x256x256x1, .f32⟩
  | .hbm, ⟨9, _⟩ => ⟨S1x1x1x8, .f32⟩
  | .hbm, ⟨10, _⟩ => ⟨S32x256x256x8, .f32⟩
  | .hbm, ⟨11, _⟩ => ⟨S32x256x256x8, .f32⟩
  | .hbm, ⟨12, _⟩ => ⟨S32x256x256x8, .i1⟩
  | .hbm, ⟨13, _⟩ => ⟨S32x256x256x1, .f32⟩
  | .hbm, ⟨14, _⟩ => ⟨S1x1x1x8, .f32⟩
  | .hbm, ⟨15, _⟩ => ⟨S32x256x256x8, .f32⟩
  | .hbm, ⟨16, _⟩ => ⟨S32x256x256x8, .f32⟩
  | .hbm, ⟨17, _⟩ => ⟨S32x256x256x8, .i1⟩
  | .hbm, ⟨18, _⟩ => ⟨S32x256x256x8, .i1⟩
  | .hbm, ⟨19, _⟩ => ⟨S8, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S32x256x256x8, .i32⟩
  | .hbm, ⟨24, _⟩ => ⟨S1x1x1x8, .i32⟩
  | .hbm, ⟨25, _⟩ => ⟨S32x256x256x8, .i32⟩
  | .hbm, ⟨26, _⟩ => ⟨S32x256x256x8, .i32⟩
  | .hbm, ⟨27, _⟩ => ⟨S_, .i32⟩
  | .hbm, ⟨28, _⟩ => ⟨S32x256x256, .i32⟩
  | .hbm, ⟨29, _⟩ => ⟨S_, .i32⟩
  | .hbm, ⟨30, _⟩ => ⟨S32x256x256, .i32⟩
  | .hbm, ⟨31, _⟩ => ⟨S32x256x256, .i1⟩
  | .hbm, ⟨32, _⟩ => ⟨S_, .i32⟩
  | .hbm, ⟨33, _⟩ => ⟨S32x256x256, .i32⟩
  | .hbm, ⟨34, _⟩ => ⟨S32x256x256, .i32⟩
  | .hbm, ⟨35, _⟩ => ⟨S_, .i32⟩
  | .hbm, ⟨36, _⟩ => ⟨S32x256x256, .i32⟩
  | .hbm, ⟨37, _⟩ => ⟨S32x256x256, .i32⟩
  | .hbm, ⟨38, _⟩ => ⟨S32x256x256x8, .f32⟩
  | .hbm, ⟨39, _⟩ => ⟨S_, .f32⟩
  | .hbm, ⟨40, _⟩ => ⟨S32x256x256, .f32⟩
  | .hbm, ⟨41, _⟩ => ⟨S_, .f32⟩
  | .hbm, ⟨42, _⟩ => ⟨S32x256x256, .f32⟩
  | .hbm, ⟨43, _⟩ => ⟨S32x256x256, .f32⟩
  | .hbm, ⟨44, _⟩ => ⟨S32x256x256x1, .f32⟩
  | .hbm, ⟨45, _⟩ => ⟨S32x256x256x8, .f32⟩
  | .hbm, ⟨46, _⟩ => ⟨S32x256x256x8, .f32⟩
  | .hbm, ⟨47, _⟩ => ⟨S32x256x256x8, .f32⟩
  | .hbm, ⟨48, _⟩ => ⟨S_, .f32⟩
  | .hbm, ⟨49, _⟩ => ⟨S32x256x256, .f32⟩
  | .hbm, ⟨50, _⟩ => ⟨S32x256x256x1, .f32⟩
  | .hbm, ⟨51, _⟩ => ⟨S32x256x256x1, .f32⟩
  | .hbm, ⟨52, _⟩ => ⟨S32x256x256x8, .f32⟩
  | .hbm, ⟨53, _⟩ => ⟨S32x256x256x8, .f32⟩
  | .hbm, ⟨54, _⟩ => ⟨S32x256x256x1, .i32⟩
  | .hbm, ⟨55, _⟩ => ⟨S_, .i32⟩
  | .hbm, ⟨56, _⟩ => ⟨S32x256x256x1, .i32⟩
  | .hbm, ⟨57, _⟩ => ⟨S32x256x256x1, .i1⟩
  | .hbm, ⟨58, _⟩ => ⟨S_, .i32⟩
  | .hbm, ⟨59, _⟩ => ⟨S32x256x256x1, .i32⟩
  | .hbm, ⟨60, _⟩ => ⟨S32x256x256x1, .i32⟩
  | .hbm, ⟨61, _⟩ => ⟨S32x256x256x1, .i32⟩
  | .hbm, ⟨62, _⟩ => ⟨S32x256x256x1x1, .i32⟩
  | .hbm, ⟨63, _⟩ => ⟨S1, .i32⟩
  | .hbm, ⟨64, _⟩ => ⟨S_, .i32⟩
  | .hbm, ⟨65, _⟩ => ⟨S32x256x256x1x1, .i32⟩
  | .hbm, ⟨66, _⟩ => ⟨S32x256x256x1x1, .i1⟩
  | .hbm, ⟨67, _⟩ => ⟨S1x1x1x1x1, .i32⟩
  | .hbm, ⟨68, _⟩ => ⟨S32x256x256x1x1, .i32⟩
  | .hbm, ⟨69, _⟩ => ⟨S32x256x256x1x1, .i1⟩
  | .hbm, ⟨70, _⟩ => ⟨S32x256x256x1x1, .i1⟩
  | .hbm, ⟨71, _⟩ => ⟨S_, .i1⟩
  | .hbm, ⟨72, _⟩ => ⟨S32x256x256x1, .i1⟩
  | .hbm, ⟨73, _⟩ => ⟨S32x256x256x1, .f32⟩
  | .hbm, ⟨74, _⟩ => ⟨S_, .f32⟩
  | .hbm, ⟨75, _⟩ => ⟨S32x256x256x1, .f32⟩
  | .hbm, ⟨76, _⟩ => ⟨S32x256x256x1, .f32⟩
  | .hbm, ⟨77, _⟩ => ⟨S32x256x256, .f32⟩
  | .hbm, ⟨78, _⟩ => ⟨S32x256x256, .f32⟩
  | .hbm, ⟨79, _⟩ => ⟨S32x256x256, .f32⟩
  | .hbm, ⟨80, _⟩ => ⟨S32x256x256, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S32x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_cst : Ref sig .tc := ⟨.hbm, 39, rfl⟩
abbrev main_call0_v0 : Ref sig .tc := ⟨.hbm, 40, rfl⟩
abbrev main_call0_cst_0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_cst_1 : Ref sig .tc := ⟨.hbm, 48, rfl⟩
abbrev main_call0_v7 : Ref sig .tc := ⟨.hbm, 49, rfl⟩
abbrev main_call0_v8 : Ref sig .tc := ⟨.hbm, 50, rfl⟩
abbrev main_call0_v9 : Ref sig .tc := ⟨.hbm, 51, rfl⟩
abbrev main_call0_v10 : Ref sig .tc := ⟨.hbm, 52, rfl⟩
abbrev main_v29 : Ref sig .tc := ⟨.hbm, 53, rfl⟩
abbrev main_v30 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_cst : Ref sig .tc := ⟨.hbm, 74, rfl⟩
abbrev main_call1_v14 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_cst_6 : Ref sig .tc := ⟨.hbm, 81, rfl⟩
abbrev main_v36 : Ref sig .tc := ⟨.hbm, 82, rfl⟩
abbrev main_cst_7 : Ref sig .tc := ⟨.hbm, 83, rfl⟩
abbrev main_v37 : Ref sig .tc := ⟨.hbm, 84, rfl⟩

abbrev nD : Nat := 1
abbrev τ : Topo := Topo.v7x

variable {F : FTy → Type} [FloatOps F]

class Facts₀ : Prop where
  shapeCasts_S32x1x512x512_S32x1x256x2x256x2 : S32x1x512x512.ShapeCasts S32x1x256x2x256x2
  reducesTo_S32x1x256x2x256x2_S32x1x256x256_d3_5 : S32x1x256x2x256x2.ReducesTo [3, 5] S32x1x256x256
  h_S_ : 0 < S_.numel
  shapeCasts_S32x1x256x256_S32x256x256 : S32x1x256x256.ShapeCasts S32x256x256
  bcast_S32x256x256_S32x256x256x1_0_1_2 : S32x256x256.BroadcastsInDim S32x256x256x1 (![0, 1, 2] : Fin 3 → Fin S32x256x256x1.rank)
  bcast_S8_S1x1x1x8_3 : S8.BroadcastsInDim S1x1x1x8 (![3] : Fin 1 → Fin S1x1x1x8.rank)
  bcast_S32x256x256x1_S32x256x256x8_0_1_2_3 : S32x256x256x1.BroadcastsInDim S32x256x256x8 (![0, 1, 2, 3] : Fin 4 → Fin S32x256x256x8.rank)
  bcast_S1x1x1x8_S32x256x256x8_0_1_2_3 : S1x1x1x8.BroadcastsInDim S32x256x256x8 (![0, 1, 2, 3] : Fin 4 → Fin S32x256x256x8.rank)
  bcast_S_S8 : S_.BroadcastsInDim S8 (![] : Fin 0 → Fin S8.rank)
  natLt_1_32 : 1 < 32
  reducesTo_S32x256x256x8_S32x256x256_d3 : S32x256x256x8.ReducesTo [3] S32x256x256
  bcast_S_S32x256x256 : S_.BroadcastsInDim S32x256x256 (![] : Fin 0 → Fin S32x256x256.rank)
  transposes_S32x8x256x256_S32x256x256x8_0_2_3_1 : S32x8x256x256.Transposes [0, 2, 3, 1] S32x256x256x8
  bcast_S_S32x256x256x1 : S_.BroadcastsInDim S32x256x256x1 (![] : Fin 0 → Fin S32x256x256x1.rank)
  shapeCasts_S32x256x256x1_S32x256x256x1x1 : S32x256x256x1.ShapeCasts S32x256x256x1x1
  bcast_S_S32x256x256x1x1 : S_.BroadcastsInDim S32x256x256x1x1 (![] : Fin 0 → Fin S32x256x256x1x1.rank)
  bcast_S1_S1x1x1x1x1_4 : S1.BroadcastsInDim S1x1x1x1x1 (![4] : Fin 1 → Fin S1x1x1x1x1.rank)
  bcast_S1x1x1x1x1_S32x256x256x1x1_0_1_2_3_4 : S1x1x1x1x1.BroadcastsInDim S32x256x256x1x1 (![0, 1, 2, 3, 4] : Fin 5 → Fin S32x256x256x1x1.rank)
  reducesTo_S32x256x256x1x1_S32x256x256x1_d4 : S32x256x256x1x1.ReducesTo [4] S32x256x256x1
  shapeCasts_S32x256x256x1_S32x256x256 : S32x256x256x1.ShapeCasts S32x256x256
  reducesTo_S32x256x256_S_d0_1_2 : S32x256x256.ReducesTo [0, 1, 2] S_
  gather_S32x256x256x8_S32x256x256x1x1_S32x256x256x1_n_3_012_012_3_4_1111_wf : GatherDims.WF S32x256x256x8 S32x256x256x1x1 S32x256x256x1 [] [3] [0, 1, 2] [3] [0, 1, 2] 4 ![1, 1, 1, 1]

variable [Facts₀]

def gather_S32x256x256x8_S32x256x256x1x1_S32x256x256x1_n_3_012_012_3_4_1111 : GatherDims S32x256x256x8 S32x256x256x1x1 S32x256x256x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S32x256x256x8_S32x256x256x1x1_S32x256x256x1_n_3_012_012_3_4_1111_wf

class Facts : Prop extends Facts₀ where

variable [Facts]
-- ==== Proof.Spec.lean ====
/-
  The mathematics both programs compute, one pixel at a time, over the extended reals.

  A pixel has a density `v` (the 2×2 block sum of the ground-truth map) and eight logits `x 0 … x 7`.
  The density falls in at most one of eight closed intervals (bins) [lo k, hi k]; its class is `k + 1` for the bin
  it falls in and `0` when it falls in none; the pixel counts (mask 1) when the class is positive, and its label is
  `class − 1` clamped below at 0. The pixel's loss is the negative log-softmax of the logits at the label, times the mask.
  Two spellings of that loss are stated here, over scalars only: the one that accumulates channel by channel
  (`pixK`) and the one that reduces over the channel axis and gathers at the label (`pixR`). That they are equal for
  finite logits is proved elsewhere; this module only fixes the two terms.
-/
import Idealize.ShloMosaic.PureOps.Ideal
import Idealize.ShloMosaic.PureOps.Ideal.Laws
import Idealize.ShloMosaic.Lib.ValueIdx

noncomputable section

namespace Cert.Zce

open Idealize.ShloMosaic

/-- The bins' lower ends 1, 2, 3, 4, 6, 9, 13, 17 as f32 words. -/
def loW : Fin 8 → BitVec 32 :=
  ![0x3F800000#32, 0x40000000#32, 0x40400000#32, 0x40800000#32, 0x40C00000#32, 0x41100000#32, 0x41500000#32, 0x41880000#32]
/-- The bins' upper ends 1, 2, 3, 5, 8, 12, 16, 100 as f32 words. -/
def hiW : Fin 8 → BitVec 32 :=
  ![0x3F800000#32, 0x40000000#32, 0x40400000#32, 0x40A00000#32, 0x41000000#32, 0x41400000#32, 0x41800000#32, 0x42C80000#32]

/-- The f32 zero word's value (it is the extended real 0: `Ideal.ofBits_zero_f32`). -/
abbrev z32 : EReal := Ideal.ofBits .f32 0x00000000#32

/-- Is the density `v` in bin `k`: lo k ≤ v and v ≤ hi k, as one bit. -/
def inBin (v : EReal) (k : Fin 8) : BitVec 1 :=
  IntOp.andi (Ideal.cmp .oge v (Ideal.ofBits .f32 (loW k))) (Ideal.cmp .ole v (Ideal.ofBits .f32 (hiW k)))

/-- The mask bit of a class: the class is positive. -/
def maskBit (cls : BitVec 32) : BitVec 1 := IntOp.cmpi .sgt cls 0#32
/-- The label of a class: class − 1, at least 0 (signed). -/
def labelOf (cls : BitVec 32) : BitVec 32 := IntOp.maxsi (IntOp.subi cls 1#32) 0#32

/-! ## Channel by channel -/

/-- The class, the bins' contributions `k + 1` or `0` added one after the other from 0. -/
def clsK (v : EReal) : BitVec 32 :=
  IntOp.addi (IntOp.addi (IntOp.addi (IntOp.addi (IntOp.addi (IntOp.addi (IntOp.addi (IntOp.addi 0#32
    (Scalar.select (inBin v 0) 1#32 0#32)) (Scalar.select (inBin v 1) 2#32 0#32)) (Scalar.select (inBin v 2) 3#32 0#32))
    (Scalar.select (inBin v 3) 4#32 0#32)) (Scalar.select (inBin v 4) 5#32 0#32)) (Scalar.select (inBin v 5) 6#32 0#32))
    (Scalar.select (inBin v 6) 7#32 0#32)) (Scalar.select (inBin v 7) 8#32 0#32)

/-- The mask as a float: the mask bit widened to 32 bits and read signed. -/
def maskK (cls : BitVec 32) : EReal := FloatOps.sitofp (F := Ideal) .f32 ((maskBit cls).setWidth 32)

/-- The running maximum of the eight logits, from the first. -/
def maxK (x : Fin 8 → EReal) : EReal :=
  max (max (max (max (max (max (max (x 0) (x 1)) (x 2)) (x 3)) (x 4)) (x 5)) (x 6)) (x 7)

/-- The sum of exp (logit − m), accumulated from zero channel by channel. -/
def sumexpK (x : Fin 8 → EReal) (m : EReal) : EReal :=
  z32 + Ideal.exp (x 0 - m) + Ideal.exp (x 1 - m) + Ideal.exp (x 2 - m) + Ideal.exp (x 3 - m) + Ideal.exp (x 4 - m)
    + Ideal.exp (x 5 - m) + Ideal.exp (x 6 - m) + Ideal.exp (x 7 - m)

/-- The logit at the label, accumulated from zero as a sum of eight selects. -/
def selK (x : Fin 8 → EReal) (lab : BitVec 32) : EReal :=
  z32 + Scalar.select (IntOp.cmpi .eq lab 0#32) (x 0) z32 + Scalar.select (IntOp.cmpi .eq lab 1#32) (x 1) z32
    + Scalar.select (IntOp.cmpi .eq lab 2#32) (x 2) z32 + Scalar.select (IntOp.cmpi .eq lab 3#32) (x 3) z32
    + Scalar.select (IntOp.cmpi .eq lab 4#32) (x 4) z32 + Scalar.select (IntOp.cmpi .eq lab 5#32) (x 5) z32
    + Scalar.select (IntOp.cmpi .eq lab 6#32) (x 6) z32 + Scalar.select (IntOp.cmpi .eq lab 7#32) (x 7) z32

/-- The pixel's loss, channel by channel: (max + log sumexp − logit at the label) · mask. -/
def pixK (x : Fin 8 → EReal) (v : EReal) : EReal :=
  (maxK x + Ideal.log (sumexpK x (maxK x)) - selK x (labelOf (clsK v))) * maskK (clsK v)

/-! ## Reduced over the channel axis and gathered -/

/-- The class as a reduction over the bins of (bin bit, widened) · (k + 1), from 0. -/
def clsR (v : EReal) : BitVec 32 :=
  (Finset.univ : Finset (Fin 8)).fold IntOp.addi 0#32
    (fun k => IntOp.muli ((inBin v k).setWidth 32) (IntOp.addi (BitVec.ofNat 32 k.val) 1#32))

/-- The mask as a float: the mask bit read unsigned. -/
def maskR (cls : BitVec 32) : EReal := FloatOps.uitofp (F := Ideal) .f32 (maskBit cls)

/-- The f32 word of −∞, the maximum's neutral start. -/
abbrev ninf32 : EReal := Ideal.ofBits .f32 0xFF800000#32

/-- The logits' maximum as a reduction from −∞, once more against −∞. -/
def maxR (x : Fin 8 → EReal) : EReal := max ninf32 ((Finset.univ : Finset (Fin 8)).fold max ninf32 x)

/-- log-softmax at channel `c`: (x c − max) − log (0 + ∑ exp (x k − max)). -/
def logpR (x : Fin 8 → EReal) (c : Fin 8) : EReal :=
  (x c - maxR x) - Ideal.log (z32 + ∑ k : Fin 8, Ideal.exp (x k - maxR x))

/-- The gather's index: a negative label is moved up by 8 (it never is one). -/
def wrapR (lab : BitVec 32) : BitVec 32 := Scalar.select (IntOp.cmpi .slt lab 0#32) (IntOp.addi lab 8#32) lab
/-- The index is inside 0 … 7: a reduction by `and` over one element, from `true`. -/
def inbR (idx : BitVec 32) : BitVec 1 :=
  (Finset.univ : Finset (Fin 1)).fold IntOp.andi 1#1
    (fun _ => IntOp.andi (IntOp.cmpi .sge idx 0#32) (IntOp.cmpi .sle idx 7#32))
/-- The channel a gather reads at start index `idx`: read signed, clamped into 0 … 7. -/
def clampR (idx : BitVec 32) : Fin 8 := ⟨min idx.toInt.toNat 7, by omega⟩

/-- The f32 quiet-NaN word's value, what a gather outside the range is replaced by. -/
abbrev nan32 : EReal := Ideal.ofBits .f32 0x7FC00000#32

/-- The pixel's loss, reduced and gathered: −(log-softmax at the label, or the NaN word's value) · mask. -/
def pixR (x : Fin 8 → EReal) (v : EReal) : EReal :=
  (-(Scalar.select (inbR (wrapR (labelOf (clsR v)))) (logpR x (clampR (wrapR (labelOf (clsR v))))) nan32)) * maskR (clsR v)

/-! ## The whole arrays -/

open Idealize.ShloMosaic.ValueIdx

/-- The density map: the 2×2 block sums of the ground-truth map, [32,1,512,512] → [32,1,256,256] (the map cut into
    2×2 blocks by a reshape, each block summed). Both programs compute it by the same two host operations. -/
def gtOf (D : FVec Ideal ⟨4, ![32, 1, 512, 512]⟩ .f32) : FVec Ideal ⟨4, ![32, 1, 256, 256]⟩ .f32 :=
  Host.reduceAdd (F := Ideal) (axes := [3, 5]) (shapeCast ⟨6, ![32, 1, 256, 2, 256, 2]⟩ D (by decide))
    (constant ⟨0, ![]⟩ .f32 0x00000000#32) (by decide) (by decide)

/-- Pixel (b, r, q)'s loss, channel by channel, from the logits X[b, ·, r, q] and the density at (b, 0, r, q). -/
def pixelsK (X : FVec Ideal ⟨4, ![32, 8, 256, 256]⟩ .f32) (D : FVec Ideal ⟨4, ![32, 1, 512, 512]⟩ .f32)
    (b : Fin 32) (r q : Fin 256) : EReal :=
  pixK (fun ch => X (ix4 b ch r q)) (gtOf D (ix4 b 0 r q))
/-- The same pixel's loss, reduced and gathered. -/
def pixelsR (X : FVec Ideal ⟨4, ![32, 8, 256, 256]⟩ .f32) (D : FVec Ideal ⟨4, ![32, 1, 512, 512]⟩ .f32)
    (b : Fin 32) (r q : Fin 256) : EReal :=
  pixR (fun ch => X (ix4 b ch r q)) (gtOf D (ix4 b 0 r q))

/-- The loss: (0 + the sum of every pixel's loss) / 32, as the one element of a rank-0 array. -/
def lossOf (P : Fin 32 → Fin 256 → Fin 256 → EReal) : FVec Ideal ⟨0, ![]⟩ .f32 :=
  fun _ => Ideal.div (z32 + ∑ b : Fin 32, ∑ r : Fin 256, ∑ q : Fin 256, P b r q) (Ideal.ofBits .f32 0x42000000#32)

end Cert.Zce

end
-- ==== Proof.LibRankThree.lean ====
/-
  Rank-three arrays read at an index: the layout operations that add, drop or stretch a unit axis of an
  [a, b, c] array, and its one-axis reductions at the ideal values.

  * casts: [a, b] → [a, b, 1], [a, 1] → [a, 1, 1], [a, c] → [a, 1, c], [c] → [1, 1, c] — each reads the operand at the
    index with the unit coordinates dropped;
  * broadcasts: [a, b, 1] → [a, b, c], [a, 1, 1] → [a, b, 1], [a, 1, c] → [a, b, c], [1, 1, c] → [a, b, c] — each reads
    the operand with the stretched coordinates set to 0;
  * sums at the ideal values: along the last axis ([a, b, c] → [a, b]) and along the middle axis ([a, b, c] → [a, c]),
    each the sum over that axis's coordinate; the maximum along the middle axis of an [a, b, 1] array, a fold of max
    from the accumulator's value.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRankThree

open Idealize.ShloMosaic Idealize.ShloMosaic.ValueIdx

variable {α : Type}

/-! ## Casts that add unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` array cast to `[a, 1, 1]` reads, at `(i, u, u')`, the operand at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ x h (ix3 i u u') = x (ix2 i (0 : Fin 1)) :=
  shapeCast_apply x h _ _ (by
    have hu : u.val = 0 := by omega
    have hu' : u'.val = 0 := by omega
    rw [Shape.rowMajor_val_three, Shape.rowMajor_val_two]
    show i.val * 1 + 0 = (i.val * 1 + u.val) * 1 + u'.val
    rw [hu, hu']; omega)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` array cast to `[1, 1, c]` reads, at `(u, u', k)`, the operand at `k`. -/
theorem shapeCast_c_11c_apply {c : ℕ} (x : (⟨1, ![c]⟩ : Shape).Idx → α)
    (h : (⟨1, ![c]⟩ : Shape).ShapeCasts ⟨3, ![1, 1, c]⟩) (u u' : Fin 1) (k : Fin c) :
    shapeCast ⟨3, ![1, 1, c]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * c + k.val
    rw [hu, hu']; omega)

/-! ## Broadcasts along unit axes -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, 1]` array broadcast to `[a, b, 1]` reads, at `(i, j, u)`, the operand at `(i, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## One-axis reductions at the ideal values -/

variable {φ : FTy}

/-- The sum of an `[a, b, c]` array along its last axis is, at `(i, j)`, the sum over `k` of the entries `(i, j, k)`. -/
theorem lastSum_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- The sum of an `[a, b, c]` array along its middle axis is, at `(i, k)`, the sum over `j` of the entries `(i, j, k)`. -/
theorem midSum_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- The maximum of an `[a, b, 1]` array along its middle axis is, at `(i, u)`, the fold of max from the accumulator's
    value over `j` of the entries `(i, j, 0)`. -/
theorem midMax_apply {a b : ℕ} (src : FVec Ideal ⟨3, ![a, b, 1]⟩ φ) (acc : BitVec φ.bits)
    (h : (⟨3, ![a, b, 1]⟩ : Shape).Reduces [1] ⟨2, ![a, 1]⟩) (hφ : FKind.Formats φ) (hacc : acc = FKind.maximumf.neutral φ hφ)
    (i : Fin a) (u : Fin 1) :
    multiReduction .maximumf [1] ⟨2, ![a, 1]⟩ src acc h hφ hacc (ix2 i u)
      = (Finset.univ : Finset (Fin b)).fold max (Ideal.ofBits φ acc) (fun j => src (ix3 i j (0 : Fin 1))) := by
  refine (Ideal.multiReduction_maximumf_single src acc h hφ hacc (ix2 i u)).trans ?_
  refine congrArg (fun f => (Finset.univ : Finset (Fin b)).fold max (Ideal.ofBits φ acc) f) (funext fun j => ?_)
  refine congrArg src (funext fun ax => Fin.ext ?_)
  have hu : u.val = 0 := by omega
  match ax with
  | ⟨0, _⟩ => rfl
  | ⟨1, _⟩ => rfl
  | ⟨2, _⟩ => exact hu

end Cert.LibRankThree

end
-- ==== Proof.KBlock.lean ====
/-
  What one grid point of the kernel leaves in its output tile, as a function of the point's two input blocks:
  the logits block x0 : [4, 8, 256, 256] and the density block x1 : [4, 1, 256, 256].

  The body computes, pixel by pixel of the block, the channel-by-channel loss `pixK` of the pixel's eight logits and
  its density; sums the four batch entries, then the 256 columns, then the 256 rows; and writes that one number at
  position (0, 0) of an [8, 128] tile whose other entries are zero.
-/
import proofs.«122373_j68341519614312_2_alg».proof.Proof.Gen.KernelIdeal.Frame
import proofs.«122373_j68341519614312_2_alg».proof.Proof.Spec
import proofs.«122373_j68341519614312_2_alg».proof.Proof.LibRankThree
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx Cert.Zce

/-! ## A channel of the logits block -/

/-- A block of logits cut at channel `ch` and viewed without its unit axis reads, at (b, r, q), the block at (b, ch, r, q). -/
theorem chan_apply (x0 : Vec Ideal S4x8x256x256 .f32) (ch : Fin 8)
    (inb : ∀ a, (![0, ch.val, 0, 0] : Fin 4 → Nat) a + S4x1x256x256.size a ≤ S4x8x256x256.size a)
    (h : S4x1x256x256.ShapeCasts S4x256x256) (b : Fin 4) (r q : Fin 256) :
    shapeCast S4x256x256 (View.ld x0 (Rect.unit (s := S4x8x256x256) ![0, ch.val, 0, 0] S4x1x256x256.size inb)) h (ix3 b r q)
      = x0 (ix4 b ch r q) := by
  refine (shapeCast_apply _ h (ix3 b r q) (ix4 b (0 : Fin 1) r q) ?_).trans ?_
  · rw [Shape.rowMajor_val_four, Shape.rowMajor_val_three]
    show ((b.val * 1 + 0) * 256 + r.val) * 256 + q.val = (b.val * 256 + r.val) * 256 + q.val
    omega
  · show x0 ((Rect.unit (s := S4x8x256x256) ![0, ch.val, 0, 0] S4x1x256x256.size inb).emb (ix4 b (0 : Fin 1) r q)) = _
    refine congrArg x0 (funext fun a => Fin.ext ?_)
    rw [Rect.emb_apply]
    match a with
    | ⟨0, _⟩ => show 0 + 1 * b.val = b.val; omega
    | ⟨1, _⟩ => show ch.val + 1 * 0 = ch.val; omega
    | ⟨2, _⟩ => show 0 + 1 * r.val = r.val; omega
    | ⟨3, _⟩ => show 0 + 1 * q.val = q.val; omega

/-- The density block viewed without its unit axis reads, at (b, r, q), the block at (b, 0, r, q). -/
theorem dens_apply (x1 : Vec Ideal S4x1x256x256 .f32) (h : S4x1x256x256.ShapeCasts S4x256x256) (b : Fin 4) (r q : Fin 256) :
    shapeCast S4x256x256 x1 h (ix3 b r q) = x1 (ix4 b (0 : Fin 1) r q) :=
  shapeCast_apply _ h (ix3 b r q) (ix4 b (0 : Fin 1) r q) (by
    rw [Shape.rowMajor_val_four, Shape.rowMajor_val_three]
    show ((b.val * 1 + 0) * 256 + r.val) * 256 + q.val = (b.val * 256 + r.val) * 256 + q.val
    omega)

/-! ## The body's last payload: pixel losses, then the sums, then the tile -/

/-- The per-pixel losses of the block: the last channel's share of the two accumulations, the logarithm, the difference
    and the mask, all pointwise. -/
def lossVec (v78 : FVec Ideal S4x256x256 .f32) (v82 : IVec S4x256x256 32) (v105 v172 v177 : FVec Ideal S4x256x256 .f32)
    (v178 : Vec Ideal S4x1x256x256 .f32) : FVec Ideal S4x256x256 .f32 :=
  mulf (subf (addf v105 (log (addf v172 (exp (subf (shapeCast S4x256x256 v178 shapeCasts_S4x1x256x256_S4x256x256) v105)))))
    (addf v177 (select (cmpi .eq v82 (broadcast S4x256x256 7#32)) (shapeCast S4x256x256 v178 shapeCasts_S4x1x256x256_S4x256x256)
      (broadcast S4x256x256 (Scalar.ofBits .f32 0x00000000#32))))) v78

/-- The block's losses summed over the batch axis, then the columns, then the rows, and placed at (0, 0) of a zero tile. -/
def tileOf (v191 : FVec Ideal S4x256x256 .f32) : FVec Ideal S8x128 .f32 :=
  select
    (andi (cmpi .eq (iota .tc S8x128 32 [0] iota_S8x128_d0_w32) (broadcast S8x128 0#32))
      (cmpi .eq (iota .tc S8x128 32 [1] iota_S8x128_d1_w32) (broadcast S8x128 0#32)))
    (broadcastTo S8x128
      (shapeCast S1x1 (shapeCast S1x1 (shapeCast S1x1x1
        (multiReduction .add [1] S1x1 (shapeCast S1x256x1
          (multiReduction .add [2] S1x256 (shapeCast S1x256x256
            (multiReduction .add [0] S256x256 v191 0x00000000#32 reduces_S4x256x256_S256x256 (.inl rfl) rfl)
            shapeCasts_S256x256_S1x256x256) 0x00000000#32 reduces_S1x256x256_S1x256 (.inl rfl) rfl)
          shapeCasts_S1x256_S1x256x1) 0x00000000#32 reduces_S1x256x1_S1x1 (.inl rfl) rfl)
        shapeCasts_S1x1_S1x1x1) shapeCasts_S1x1x1_S1x1) shapeCasts_S1x1_S1x1) broadcasts_S1x1_S8x128)
    (broadcast S8x128 (Scalar.ofBits .f32 0x00000000#32))

theorem pay1_split (v78 : FVec Ideal S4x256x256 .f32) (v82 : IVec S4x256x256 32) (v105 v172 v177 : FVec Ideal S4x256x256 .f32)
    (v178 : Vec Ideal S4x1x256x256 .f32) :
    k0_pay1 v78 v82 v105 v172 v177 v178 = tileOf (lossVec v78 v82 v105 v172 v177 v178) := rfl

/-! ## The sums and the tile, read at an index -/

/-- The sum of an [a, b, c] array along its first axis is, at (j, k), the sum over i of the entries (i, j, k). -/
theorem firstSum_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (j : Fin b) (k : Fin c) :
    multiReduction .add [0] ⟨2, ![b, c]⟩ src acc h hφ hacc (ix2 j k) = ∑ i : Fin a, src (ix3 i j k) := by
  refine (Ideal.multiReduction_add_single src acc h hφ hacc (ix2 j k)).trans ?_
  refine Finset.sum_congr rfl fun i _ => congrArg src (funext fun ax => Fin.ext ?_)
  match ax with
  | ⟨0, _⟩ => rfl
  | ⟨1, _⟩ => rfl
  | ⟨2, _⟩ => rfl

/-- The tile's condition: row 0 and column 0. -/
theorem keep_bit : ∀ (a : Fin 8) (c : Fin 128),
    IntOp.andi (IntOp.cmpi .eq (BitVec.ofNat 32 a.val) 0#32) (IntOp.cmpi .eq (BitVec.ofNat 32 c.val) 0#32)
      = if a.val = 0 ∧ c.val = 0 then 1#1 else 0#1 := by decide +kernel

/-- The total of a [4, 256, 256] block of losses, the batch axis summed first, then the columns, then the rows. -/
def blockTotal (p : FVec Ideal S4x256x256 .f32) : EReal := ∑ r : Fin 256, ∑ q : Fin 256, ∑ b : Fin 4, p (ix3 b r q)

/-- The tile holds the block's total at (0, 0) and zero elsewhere. -/
theorem tileOf_apply (p : FVec Ideal S4x256x256 .f32) (a : Fin 8) (c : Fin 128) :
    tileOf p (ix2 a c) = if a.val = 0 ∧ c.val = 0 then blockTotal p else z32 := by
  unfold tileOf
  rw [select_apply]
  have hbit : (andi (cmpi .eq (iota .tc S8x128 32 [0] iota_S8x128_d0_w32) (broadcast S8x128 0#32))
      (cmpi .eq (iota .tc S8x128 32 [1] iota_S8x128_d1_w32) (broadcast S8x128 0#32))) (ix2 a c)
      = if a.val = 0 ∧ c.val = 0 then 1#1 else 0#1 := by
    show IntOp.andi (IntOp.cmpi .eq (iota .tc S8x128 32 [0] iota_S8x128_d0_w32 (ix2 a c)) 0#32)
      (IntOp.cmpi .eq (iota .tc S8x128 32 [1] iota_S8x128_d1_w32 (ix2 a c)) 0#32) = _
    rw [iota_single_apply, iota_single_apply]
    exact keep_bit a c
  rw [hbit]
  by_cases hac : a.val = 0 ∧ c.val = 0
  · rw [if_pos hac, if_pos hac, select_one]
    -- the broadcast reads the one entry of the [1, 1] total
    refine (broadcastTo_apply _ broadcasts_S1x1_S8x128 (ix2 a c) (ix2 (0 : Fin 1) (0 : Fin 1)) (fun ax => by
      match ax with
      | ⟨0, _⟩ => rfl
      | ⟨1, _⟩ => rfl)).trans ?_
    rw [shapeCast_self, shapeCast_shapeCast]
    -- rows
    refine (Cert.LibRankThree.midSum_apply _ 0x00000000#32 reduces_S1x256x1_S1x1 (.inl rfl) rfl (0 : Fin 1) (0 : Fin 1)).trans ?_
    unfold blockTotal
    refine Finset.sum_congr rfl fun r _ => ?_
    refine (Cert.LibRankThree.shapeCast_ab_ab1_apply _ shapeCasts_S1x256_S1x256x1 (0 : Fin 1) r (0 : Fin 1)).trans ?_
    -- columns
    refine (Cert.LibRankThree.lastSum_apply _ 0x00000000#32 reduces_S1x256x256_S1x256 (.inl rfl) rfl (0 : Fin 1) r).trans ?_
    refine Finset.sum_congr rfl fun q _ => ?_
    refine (shapeCast_ab_1ab_apply _ shapeCasts_S256x256_S1x256x256 (0 : Fin 1) r q).trans ?_
    -- batch
    exact firstSum_apply p 0x00000000#32 reduces_S4x256x256_S256x256 (.inl rfl) rfl r q
  · rw [if_neg hac, if_neg hac, select_zero]
    rfl

end Cert.KernelIdeal.KValue

end
-- ==== Proof.KPixel.lean ====
/-
  One pixel of a grid point's block of losses: the body's pointwise chain, read at pixel (b, r, q) of the block, is the
  channel-by-channel loss `pixK` of the eight logits x0[b, ·, r, q] and the density x1[b, 0, r, q].
-/
import proofs.«122373_j68341519614312_2_alg».proof.Proof.KBlock

noncomputable section

namespace Cert.KernelIdeal.KValue

open Cert.KernelIdeal Cert.KernelIdeal.Gen Idealize.ShloMosaic Idealize.ShloMosaic.ValueIdx Cert.Zce

/-- The block of per-pixel losses a grid point computes from its two input blocks. -/
def blockLoss (x0 : Vec Ideal S4x8x256x256 .f32) (x1 : Vec Ideal S4x1x256x256 .f32) : FVec Ideal S4x256x256 .f32 :=
  lossVec (k0_pay6 (k0_pay2 (View.ld x1 r0_0)) (k0_pay3 (View.ld x1 r0_0)) (k0_pay4 (View.ld x1 r0_0))) (k0_pay8 (k0_pay5 (k0_pay2 (View.ld x1 r0_0)) (k0_pay3 (View.ld x1 r0_0)) (k0_pay4 (View.ld x1 r0_0))) k0_pay7) (k0_pay9 (View.ld x0 r0_1) (View.ld x0 r0_2) (View.ld x0 r0_3) (View.ld x0 r0_4) (View.ld x0 r0_5) (View.ld x0 r0_6) (View.ld x0 r0_7) (View.ld x0 r0_8))
    (k0_pay19 (k0_pay9 (View.ld x0 r0_1) (View.ld x0 r0_2) (View.ld x0 r0_3) (View.ld x0 r0_4) (View.ld x0 r0_5) (View.ld x0 r0_6) (View.ld x0 r0_7) (View.ld x0 r0_8)) (k0_pay15 (k0_pay9 (View.ld x0 r0_1) (View.ld x0 r0_2) (View.ld x0 r0_3) (View.ld x0 r0_4) (View.ld x0 r0_5) (View.ld x0 r0_6) (View.ld x0 r0_7) (View.ld x0 r0_8)) (Scalar.ofBits .f32 0x00000000#32) (View.ld x0 r0_1) (View.ld x0 r0_2) (View.ld x0 r0_3) (View.ld x0 r0_4)) (View.ld x0 r0_5) (View.ld x0 r0_6) (View.ld x0 r0_7))
    (k0_pay20 (k0_pay8 (k0_pay5 (k0_pay2 (View.ld x1 r0_0)) (k0_pay3 (View.ld x1 r0_0)) (k0_pay4 (View.ld x1 r0_0))) k0_pay7) (k0_pay13 (k0_pay8 (k0_pay5 (k0_pay2 (View.ld x1 r0_0)) (k0_pay3 (View.ld x1 r0_0)) (k0_pay4 (View.ld x1 r0_0))) k0_pay7) (View.ld x0 r0_1) (View.ld x0 r0_2) (View.ld x0 r0_3)) (k0_pay14 (View.ld x0 r0_4)) (View.ld x0 r0_5) (View.ld x0 r0_6) (View.ld x0 r0_7)) (View.ld x0 r0_8)

/-- What the body stores is the tile of that block's total. -/
theorem out_eq_tile (x0 : Vec Ideal S4x8x256x256 .f32) (x1 : Vec Ideal S4x1x256x256 .f32) :
    out0_2 x0 x1 = View.canon [⟨r0_9, tileOf (blockLoss x0 x1)⟩] := rfl

/-- A view without its unit axis of each of the nine loaded blocks. -/
abbrev sc (v : Vec Ideal S4x1x256x256 .f32) : FVec Ideal S4x256x256 .f32 :=
  shapeCast S4x256x256 v shapeCasts_S4x1x256x256_S4x256x256

set_option maxRecDepth 65536 in
/-- The pointwise chain at a pixel, over the nine loaded blocks read there: every operation of it acts entry by entry. -/
theorem blockLoss_pointwise (x0 : Vec Ideal S4x8x256x256 .f32) (x1 : Vec Ideal S4x1x256x256 .f32) (i : S4x256x256.Idx) :
    blockLoss x0 x1 i
      = pixK (fun ch => (![sc (View.ld x0 r0_1) i, sc (View.ld x0 r0_2) i, sc (View.ld x0 r0_3) i, sc (View.ld x0 r0_4) i, sc (View.ld x0 r0_5) i, sc (View.ld x0 r0_6) i, sc (View.ld x0 r0_7) i, sc (View.ld x0 r0_8) i] : Fin 8 → EReal) ch)
          (sc (View.ld x1 r0_0) i) := rfl

theorem hz4 : (![0, 0, 0, 0] : Fin 4 → Nat) = fun _ => 0 := funext fun a => by fin_cases a <;> rfl

/-- The total of a grid point's block of losses: the sum, over the block's pixels, of the channel-by-channel loss of the
    pixel's logits and density as the two input blocks hold them. -/
theorem blockTotal_blockLoss (x0 : Vec Ideal S4x8x256x256 .f32) (x1 : Vec Ideal S4x1x256x256 .f32) :
    blockTotal (blockLoss x0 x1)
      = ∑ r : Fin 256, ∑ q : Fin 256, ∑ b : Fin 4, pixK (fun ch => x0 (ix4 b ch r q)) (x1 (ix4 b (0 : Fin 1) r q)) := by
  unfold blockTotal
  refine Finset.sum_congr rfl fun r _ => Finset.sum_congr rfl fun q _ => Finset.sum_congr rfl fun b _ => ?_
  rw [blockLoss_pointwise]
  have hd : sc (View.ld x1 r0_0) (ix3 b r q) = x1 (ix4 b (0 : Fin 1) r q) := by
    rw [View.ld_unit_zero (S := S4x1x256x256) hz4]
    exact dens_apply x1 _ b r q
  have hx : (fun ch : Fin 8 => (![sc (View.ld x0 r0_1) (ix3 b r q), sc (View.ld x0 r0_2) (ix3 b r q), sc (View.ld x0 r0_3) (ix3 b r q),
      sc (View.ld x0 r0_4) (ix3 b r q), sc (View.ld x0 r0_5) (ix3 b r q), sc (View.ld x0 r0_6) (ix3 b r q), sc (View.ld x0 r0_7) (ix3 b r q),
      sc (View.ld x0 r0_8) (ix3 b r q)] : Fin 8 → EReal) ch) = fun ch => x0 (ix4 b ch r q) := by
    funext ch
    match ch with
    | ⟨0, _⟩ => exact chan_apply x0 (0 : Fin 8) _ _ b r q
    | ⟨1, _⟩ => exact chan_apply x0 (1 : Fin 8) _ _ b r q
    | ⟨2, _⟩ => exact chan_apply x0 (2 : Fin 8) _ _ b r q
    | ⟨3, _⟩ => exact chan_apply x0 (3 : Fin 8) _ _ b r q
    | ⟨4, _⟩ => exact chan_apply x0 (4 : Fin 8) _ _ b r q
    | ⟨5, _⟩ => exact chan_apply x0 (5 : Fin 8) _ _ b r q
    | ⟨6, _⟩ => exact chan_apply x0 (6 : Fin 8) _ _ b r q
    | ⟨7, _⟩ => exact chan_apply x0 (7 : Fin 8) _ _ b r q
  rw [hx, hd]

end Cert.KernelIdeal.KValue

end
-- ==== Proof.KArray.lean ====
/-
  The kernel's output array after the run, as one function of the two arrays its grid reads.

  Grid point t reads batch entries 4t … 4t + 3 of the logits and of the density map and writes rows 8t … 8t + 7 of the
  [64, 128] output: the total loss of those four batch entries at (8t, 0), zero elsewhere. The eight tiles cover the output.
-/
import proofs.«122373_j68341519614312_2_alg».proof.Proof.KPixel

noncomputable section

namespace Cert.KernelIdeal.KValue

open Cert.KernelIdeal Cert.KernelIdeal.Gen Idealize.ShloMosaic Idealize.ShloMosaic.TcCoe Idealize.ShloMosaic.ValueIdx Cert.Zce
open Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- The total loss of batch tile `t`: its four batch entries, all pixels. -/
def tileTotal (X : S32x8x256x256.Idx → EReal) (G : S32x1x256x256.Idx → EReal) (t : Fin 8) : EReal :=
  ∑ r : Fin 256, ∑ q : Fin 256, ∑ b : Fin 4,
    pixK (fun ch => X (ix4 (⟨4 * t.val + b.val, by omega⟩ : Fin 32) ch r q)) (G (ix4 (⟨4 * t.val + b.val, by omega⟩ : Fin 32) (0 : Fin 1) r q))

/-- The output array: tile t's total at (8t, 0), zero elsewhere. -/
def outArr (X : S32x8x256x256.Idx → EReal) (G : S32x1x256x256.Idx → EReal) : S64x128.Idx → EReal := fun i =>
  if (i 0).val % 8 = 0 ∧ (i 1).val = 0 then tileTotal X G ⟨(i 0).val / 8, by have h : (i 0).val < 64 := (i 0).isLt; omega⟩ else z32

/-- The printed index maps over the grid: every window moves along its first axis with the point and stays at 0 on the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 2) = t.val ∧ win0_2.index t (1 : Fin 2) = 0 :=
  (by decide +kernel : ∀ t : Fin grid0.N, _)

/-- The logits block at point t, at (b, ch, r, q), is the logits array at (4t + b, ch, r, q). -/
theorem iblk0_apply (c : Dev nD) (t : Fin cfg0.N) (ht : t.val < 8) (b : Fin 4) (ch : Fin 8) (r q : Fin 256) :
    (iblk m c 0 t : Vec Ideal S4x8x256x256 .f32) (ix4 b ch r q)
      = (V m c main_arg0 : S32x8x256x256.Idx → EReal) (ix4 (⟨4 * t.val + b.val, by omega⟩ : Fin 32) ch r q) := by
  obtain ⟨e0, e1, e2, e3, -⟩ := idx_facts t
  unfold iblk
  rw [View.read_apply]
  show V m c main_arg0 _ = V m c main_arg0 _
  congr 1
  funext a
  apply Fin.ext
  match a with
  | ⟨0, _⟩ => show win0_0.index t (0 : Fin 4) * 4 + 1 * b.val = 4 * t.val + b.val; rw [e0]; omega
  | ⟨1, _⟩ => show win0_0.index t (1 : Fin 4) * 8 + 1 * ch.val = ch.val; rw [e1]; omega
  | ⟨2, _⟩ => show win0_0.index t (2 : Fin 4) * 256 + 1 * r.val = r.val; rw [e2]; omega
  | ⟨3, _⟩ => show win0_0.index t (3 : Fin 4) * 256 + 1 * q.val = q.val; rw [e3]; omega

/-- The density block at point t, at (b, 0, r, q), is the density array at (4t + b, 0, r, q). -/
theorem iblk1_apply (c : Dev nD) (t : Fin cfg0.N) (ht : t.val < 8) (b : Fin 4) (r q : Fin 256) :
    (iblk m c 1 t : Vec Ideal S4x1x256x256 .f32) (ix4 b (0 : Fin 1) r q)
      = (V m c main_v1 : S32x1x256x256.Idx → EReal) (ix4 (⟨4 * t.val + b.val, by omega⟩ : Fin 32) (0 : Fin 1) r q) := by
  obtain ⟨-, -, -, -, e0, e1, e2, e3, -⟩ := idx_facts t
  unfold iblk
  rw [View.read_apply]
  show V m c main_v1 _ = V m c main_v1 _
  congr 1
  funext a
  apply Fin.ext
  match a with
  | ⟨0, _⟩ => show win0_1.index t (0 : Fin 4) * 4 + 1 * b.val = 4 * t.val + b.val; rw [e0]; omega
  | ⟨1, _⟩ => show win0_1.index t (1 : Fin 4) * 1 + 1 * 0 = 0; rw [e1]
  | ⟨2, _⟩ => show win0_1.index t (2 : Fin 4) * 256 + 1 * r.val = r.val; rw [e2]; omega
  | ⟨3, _⟩ => show win0_1.index t (3 : Fin 4) * 256 + 1 * q.val = q.val; rw [e3]; omega

/-- WHAT POINT t WRITES BACK is block t of the output array's function. -/
theorem flushed_eq (c : Dev nD) (t : Fin cfg0.N) :
    (dats m 0 c).flushed 2 t = ((cfg0.win 2).blk t).view.read (Elt Ideal) (outArr (V m c main_arg0) (V m c main_v1)) := by
  have ht : t.val < 8 := by have := t.isLt; have hN : cfg0.N = 8 := N_0; omega
  obtain ⟨-, -, -, -, -, -, -, -, f0, f1⟩ := idx_facts t
  show (cfg0.win 2).cut (grid0.coords t) ((dats m 0 c).after 2 t) = _
  rw [after0_2, out_eq_tile, View.canon_unit_zero hz2]
  funext j
  obtain ⟨a, c', rfl⟩ : ∃ (a : Fin 8) (c' : Fin 128), j = ix2 a c' := ⟨j 0, j 1, eq_ix2 j⟩
  show tileOf (blockLoss (iblk m c 0 t) (iblk m c 1 t)) (ix2 a c')
    = outArr (V m c main_arg0) (V m c main_v1) (((cfg0.win 2).blk t).view.emb (ix2 a c'))
  have hemb : ((cfg0.win 2).blk t).view.emb (ix2 a c') = (ix2 (⟨8 * t.val + a.val, by omega⟩ : Fin 64) c' : S64x128.Idx) := by
    funext ax
    apply Fin.ext
    match ax with
    | ⟨0, _⟩ => show win0_2.index t (0 : Fin 2) * 8 + 1 * a.val = 8 * t.val + a.val; rw [f0]; omega
    | ⟨1, _⟩ => show win0_2.index t (1 : Fin 2) * 128 + 1 * c'.val = c'.val; rw [f1]; omega
  rw [hemb]
  refine (tileOf_apply _ a c').trans ?_
  unfold outArr
  show _ = if (8 * t.val + a.val) % 8 = 0 ∧ c'.val = 0 then tileTotal _ _ ⟨(8 * t.val + a.val) / 8, _⟩ else z32
  by_cases hac : a.val = 0 ∧ c'.val = 0
  · rw [if_pos hac, if_pos ⟨by omega, hac.2⟩]
    have hq : (⟨(8 * t.val + a.val) / 8, by omega⟩ : Fin 8) = ⟨t.val, ht⟩ := Fin.ext (by show (8 * t.val + a.val) / 8 = t.val; omega)
    rw [hq]
    refine (blockTotal_blockLoss _ _).trans ?_
    unfold tileTotal
    refine Finset.sum_congr rfl fun r _ => Finset.sum_congr rfl fun q _ => Finset.sum_congr rfl fun b _ => ?_
    rw [iblk1_apply m c t ht b r q]
    refine congrArg (fun f => pixK f _) (funext fun ch => ?_)
    exact iblk0_apply m c t ht b ch r q
  · rw [if_neg hac, if_neg (fun h => hac ⟨by omega, h.2⟩)]

/-- An index of the output is in point t's block iff each coordinate is in the block's range on its axis. -/
theorem mem_blk (t : Fin cfg0.N) (i : S64x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- THE OUTPUT ARRAY after the run: the eight tiles cover it. -/
theorem final (c : Dev nD) : (dats m 0 c).arrAt 2 cfg0.N = outArr (V m c main_arg0) (V m c main_v1) :=
  (dats m 0 c).arrAt_eq_of_cover 2 (outArr (V m c main_arg0) (V m c main_v1)) (fun t _ => flushed_eq m c t) fun i => by
    have h0 : (i 0).val < 64 := (i 0).isLt
    have h1 : (i 1).val < 128 := (i 1).isLt
    have hN : cfg0.N = 8 := N_0
    let t : Fin cfg0.N := ⟨(i 0).val / 8, by omega⟩
    obtain ⟨-, -, -, -, -, -, -, -, f0, f1⟩ := idx_facts t
    refine ⟨t, flush0_2 t, ?_⟩
    rw [mem_blk]
    intro a
    match a with
    | ⟨0, _⟩ => show win0_2.index t (0 : Fin 2) * 8 ≤ (i 0).val ∧ (i 0).val < win0_2.index t (0 : Fin 2) * 8 + 8; rw [f0]; show (i 0).val / 8 * 8 ≤ (i 0).val ∧ (i 0).val < (i 0).val / 8 * 8 + 8; omega
    | ⟨1, _⟩ => show win0_2.index t (1 : Fin 2) * 128 ≤ (i 1).val ∧ (i 1).val < win0_2.index t (1 : Fin 2) * 128 + 128; rw [f1]; omega

end Cert.KernelIdeal.KValue

end
-- ==== Proof.TileSum.lean ====
/-
  A sum over a [64, 128] array that is zero except at the positions (8t, 0), t = 0 … 7, is the sum of those eight entries.
-/
import Mathlib.Data.EReal.Basic
import Mathlib.Algebra.BigOperators.Fin

open scoped BigOperators

namespace Cert.Zce

/-- Eight tiles of eight rows: only row 8t, column 0 of tile t holds a value. -/
theorem sum_tiles (T : Fin 8 → EReal) :
    ∑ a : Fin 64, ∑ c : Fin 128, (if a.val % 8 = 0 ∧ c.val = 0 then T ⟨a.val / 8, by omega⟩ else 0) = ∑ t : Fin 8, T t := by
  have inner : ∀ a : Fin 64, ∑ c : Fin 128, (if a.val % 8 = 0 ∧ c.val = 0 then T ⟨a.val / 8, by omega⟩ else 0)
      = if a.val % 8 = 0 then T ⟨a.val / 8, by omega⟩ else 0 := by
    intro a
    rw [Finset.sum_eq_single (0 : Fin 128)]
    · by_cases h : a.val % 8 = 0
      · rw [if_pos ⟨h, rfl⟩, if_pos h]
      · rw [if_neg (fun hh => h hh.1), if_neg h]
    · intro c _ hc
      exact if_neg (fun h => hc (Fin.ext h.2))
    · intro h; exact absurd (Finset.mem_univ _) h
  rw [Finset.sum_congr rfl fun a _ => inner a, ← Finset.sum_filter]
  refine Finset.sum_bij (fun a _ => (⟨a.val / 8, by omega⟩ : Fin 8)) (fun _ _ => Finset.mem_univ _) ?_ ?_ (fun _ _ => rfl)
  · intro a ha a' ha' h
    have h1 : a.val % 8 = 0 := (Finset.mem_filter.mp ha).2
    have h2 : a'.val % 8 = 0 := (Finset.mem_filter.mp ha').2
    have h3 : a.val / 8 = a'.val / 8 := congrArg Fin.val h
    exact Fin.ext (by omega)
  · intro t _
    refine ⟨⟨8 * t.val, by omega⟩, Finset.mem_filter.mpr ⟨Finset.mem_univ _, by show 8 * t.val % 8 = 0; omega⟩, ?_⟩
    exact Fin.ext (by show 8 * t.val / 8 = t.val; omega)

end Cert.Zce
-- ==== Proof.Regroup.lean ====
/-
  The batch of 32 cut into 8 tiles of 4: the sum over tiles, rows, columns and the batch inside a tile, in that order
  of nesting, is the sum over the whole batch, rows and columns.
-/
import Mathlib.Data.EReal.Basic
import Mathlib.Algebra.BigOperators.Fin
import Mathlib.Algebra.BigOperators.Group.Finset.Sigma

namespace Cert.Zce

open scoped BigOperators

/-- Tile `t` and place `b'` inside the tile name batch element `4 t + b'`. -/
def tileEquiv : Fin 8 × Fin 4 ≃ Fin 32 where
  toFun p := ⟨4 * p.1.val + p.2.val, by omega⟩
  invFun b := (⟨b.val / 4, by omega⟩, ⟨b.val % 4, by omega⟩)
  left_inv := by
    rintro ⟨t, b'⟩
    refine Prod.ext (Fin.ext ?_) (Fin.ext ?_)
    · show (4 * t.val + b'.val) / 4 = t.val; omega
    · show (4 * t.val + b'.val) % 4 = b'.val; omega
  right_inv := by
    intro b
    refine Fin.ext ?_
    show 4 * (b.val / 4) + b.val % 4 = b.val; omega

theorem sum_regroup (P : Fin 32 → Fin 256 → Fin 256 → EReal) :
    ∑ t : Fin 8, ∑ r : Fin 256, ∑ q : Fin 256, ∑ b' : Fin 4, P ⟨4 * t.val + b'.val, by omega⟩ r q
      = ∑ b : Fin 32, ∑ r : Fin 256, ∑ q : Fin 256, P b r q := by
  rw [← Equiv.sum_comp tileEquiv (fun b => ∑ r : Fin 256, ∑ q : Fin 256, P b r q), Fintype.sum_prod_type]
  refine Finset.sum_congr rfl fun t _ => ?_
  calc ∑ r : Fin 256, ∑ q : Fin 256, ∑ b' : Fin 4, P ⟨4 * t.val + b'.val, by omega⟩ r q
      = ∑ r : Fin 256, ∑ b' : Fin 4, ∑ q : Fin 256, P ⟨4 * t.val + b'.val, by omega⟩ r q :=
        Finset.sum_congr rfl fun r _ => Finset.sum_comm
    _ = ∑ b' : Fin 4, ∑ r : Fin 256, ∑ q : Fin 256, P ⟨4 * t.val + b'.val, by omega⟩ r q := Finset.sum_comm
    _ = ∑ b' : Fin 4, ∑ r : Fin 256, ∑ q : Fin 256, P (tileEquiv (t, b')) r q := rfl

end Cert.Zce
-- ==== Proof.KRun.lean ====
/-
  The kernel program's run, read: its result buffer ends at (0 + the sum of every pixel's channel-by-channel loss) / 32.

  Before the grid the host forms the density map (the 2×2 block sums); after it the host adds up the [64, 128] output —
  which holds the eight tile totals and zeros — and divides by 32. The eight tile totals regroup into the sum over all
  32 × 256 × 256 pixels.
-/
import proofs.«122373_j68341519614312_2_alg».proof.Proof.KArray
import proofs.«122373_j68341519614312_2_alg».proof.Proof.TileSum
import proofs.«122373_j68341519614312_2_alg».proof.Proof.Regroup
import Idealize.ShloMosaic.Lib.StableHlo.Run

noncomputable section

namespace Cert.KernelIdeal.KValue

open Cert.KernelIdeal Cert.KernelIdeal.Gen Idealize.ShloMosaic Idealize.ShloMosaic.TcCoe Idealize.ShloMosaic.ValueIdx Cert.Zce
open Idealize.SL.Sem Idealize.ShloMosaic.StableHlo
open Idealize.ShloMosaic.Pipeline (Dat)

variable (m : (ℓ : Loc nD τ sig) → Buf (Elt Ideal) ℓ) (ρ : Dev nD → PrngReg)

/-- The density array the grid reads is the block-sum map of the second argument. -/
theorem V_v1 (c : Dev nD) : (V m c main_v1 : S32x1x256x256.Idx → EReal) = gtOf (m ((c : Thread nD τ).loc main_arg1)) := by
  show StableHlo.after hostOps0 (fun b => m (c, b)) (Proc.devRef .tc main_v1) = _
  after_results
  rfl

/-- The host's last two operations on the output array. -/
theorem tail_eq (c : Dev nD) : Pipeline.afterTail₀ cfgs (dats m) 0 (V0 m) [hostOps1] c main_v4
    = Host.divf (F := Ideal) (Host.reduceAdd (F := Ideal) ((dats m 0 c).arrAt 2 cfg0.N) (constant S_ .f32 0x00000000#32)
        reducesTo_S64x128_S_d0_1 h_S_) (constant S_ .f32 0x42000000#32) := by
  unfold Pipeline.afterTail₀
  show StableHlo.after hostOps1 _ (Proc.devRef .tc main_v4) = _
  after_results
  rw [show Pipeline.withArrays (cfgs 0).spec c (V0 m c) (fun w => (dats m 0 c).arrAt w (cfgs 0).N) (Proc.tc.devRef main_v2)
      = (dats m 0 c).arrAt 2 cfg0.N from Pipeline.withArrays_arr spec0 launch0.win.arr_inj c _ _ 2]

/-- The output array's total over 32, regrouped pixel by pixel. -/
theorem total_eq (X : S32x8x256x256.Idx → EReal) (G : S32x1x256x256.Idx → EReal) :
    Host.divf (F := Ideal) (Host.reduceAdd (F := Ideal) (outArr X G) (constant S_ .f32 0x00000000#32)
        reducesTo_S64x128_S_d0_1 h_S_) (constant S_ .f32 0x42000000#32)
      = lossOf (fun b r q => pixK (fun ch => X (ix4 b ch r q)) (G (ix4 b (0 : Fin 1) r q))) := by
  funext j
  show Ideal.div (Ideal.hostReduceAdd reducesTo_S64x128_S_d0_1 (outArr X G) (Ideal.ofBits .f32 0x00000000#32) j) (Ideal.ofBits .f32 0x42000000#32)
    = Ideal.div (z32 + ∑ b : Fin 32, ∑ r : Fin 256, ∑ q : Fin 256, pixK (fun ch => X (ix4 b ch r q)) (G (ix4 b (0 : Fin 1) r q))) (Ideal.ofBits .f32 0x42000000#32)
  rw [Ideal.hostReduceAdd_total reducesTo_S64x128_S_d0_1 (fun b => b.elim0)]
  refine congrArg (fun s => Ideal.div (z32 + s) (Ideal.ofBits .f32 0x42000000#32)) ?_
  rw [sum_idx2]
  have hcell : ∀ (a : Fin 64) (c : Fin 128), outArr X G (ix2 a c)
      = if a.val % 8 = 0 ∧ c.val = 0 then tileTotal X G ⟨a.val / 8, by omega⟩ else 0 := by
    intro a c
    unfold outArr
    show (if a.val % 8 = 0 ∧ c.val = 0 then tileTotal X G ⟨a.val / 8, _⟩ else z32) = _
    rw [show z32 = (0 : EReal) from Ideal.ofBits_zero_f32]
  rw [Finset.sum_congr rfl fun a _ => Finset.sum_congr rfl fun c _ => hcell a c, sum_tiles (tileTotal X G)]
  unfold tileTotal
  exact sum_regroup (fun b r q => pixK (fun ch => X (ix4 b ch r q)) (G (ix4 b (0 : Fin 1) r q)))

/-- What the kernel program's result buffer ends holding. -/
theorem value (c : Dev nD) : Pipeline.afterTail₀ cfgs (dats m) 0 (V0 m) [hostOps1] c main_v4
    = lossOf (pixelsK (m ((c : Thread nD τ).loc main_arg0)) (m ((c : Thread nD τ).loc main_arg1))) := by
  refine (tail_eq m c).trans ?_
  rw [final m c, V_main_arg0 m c, V_v1 m c]
  exact total_eq _ _

/-- THE RUN, READ: every weakly fair execution terminates with the result at the loss of the channel-by-channel pixel
    losses, the two arguments unchanged. -/
theorem run : θ_run defs (onTc (τ := τ) (main (F := Ideal))) ⟨m, fun _ => 0, ρ⟩ fun r => ∀ c : Dev nD,
      r.2.mem ((c.tc : Thread nD τ).loc main_v4) = lossOf (pixelsK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans (value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.Literals.lean ====
/-
  The f32 words the bins' ends are written with, as the real numbers they denote, and the words of −∞ and zero.
-/
import proofs.«122373_j68341519614312_2_alg».proof.Proof.Spec

namespace Cert.Zce

open Idealize.ShloMosaic

theorem w_1 : Ideal.ofBits .f32 0x3F800000#32 = ((1 : ℝ) : EReal) := by
  simp [Ideal.ofBits, Ideal.ieee, -EReal.coe_mul]; norm_num
theorem w_2 : Ideal.ofBits .f32 0x40000000#32 = ((2 : ℝ) : EReal) := by
  simp [Ideal.ofBits, Ideal.ieee, -EReal.coe_mul]; norm_num
theorem w_3 : Ideal.ofBits .f32 0x40400000#32 = ((3 : ℝ) : EReal) := by
  simp [Ideal.ofBits, Ideal.ieee, -EReal.coe_mul]; norm_num
theorem w_4 : Ideal.ofBits .f32 0x40800000#32 = ((4 : ℝ) : EReal) := by
  simp [Ideal.ofBits, Ideal.ieee, -EReal.coe_mul]; norm_num
theorem w_5 : Ideal.ofBits .f32 0x40A00000#32 = ((5 : ℝ) : EReal) := by
  simp [Ideal.ofBits, Ideal.ieee, -EReal.coe_mul]; norm_num
theorem w_6 : Ideal.ofBits .f32 0x40C00000#32 = ((6 : ℝ) : EReal) := by
  simp [Ideal.ofBits, Ideal.ieee, -EReal.coe_mul]; norm_num
theorem w_8 : Ideal.ofBits .f32 0x41000000#32 = ((8 : ℝ) : EReal) := by
  simp [Ideal.ofBits, Ideal.ieee, -EReal.coe_mul]; norm_num
theorem w_9 : Ideal.ofBits .f32 0x41100000#32 = ((9 : ℝ) : EReal) := by
  simp [Ideal.ofBits, Ideal.ieee, -EReal.coe_mul]; norm_num
theorem w_12 : Ideal.ofBits .f32 0x41400000#32 = ((12 : ℝ) : EReal) := by
  simp [Ideal.ofBits, Ideal.ieee, -EReal.coe_mul]; norm_num
theorem w_13 : Ideal.ofBits .f32 0x41500000#32 = ((13 : ℝ) : EReal) := by
  simp [Ideal.ofBits, Ideal.ieee, -EReal.coe_mul]; norm_num
theorem w_16 : Ideal.ofBits .f32 0x41800000#32 = ((16 : ℝ) : EReal) := by
  simp [Ideal.ofBits, Ideal.ieee, -EReal.coe_mul]; norm_num
theorem w_17 : Ideal.ofBits .f32 0x41880000#32 = ((17 : ℝ) : EReal) := by
  simp [Ideal.ofBits, Ideal.ieee, -EReal.coe_mul]; norm_num
theorem w_100 : Ideal.ofBits .f32 0x42C80000#32 = ((100 : ℝ) : EReal) := by
  simp [Ideal.ofBits, Ideal.ieee, -EReal.coe_mul]; norm_num

/-- The word of −∞ is the bottom element. -/
theorem ninf32_eq : ninf32 = ⊥ := by simp [ninf32, Ideal.ofBits, Ideal.ieee]
/-- The zero word is zero. -/
theorem z32_eq : z32 = 0 := Ideal.ofBits_zero_f32

/-- The lower end of bin `k`, a natural number. -/
def loN : Fin 8 → ℕ := ![1, 2, 3, 4, 6, 9, 13, 17]
/-- The upper end of bin `k`, a natural number. -/
def hiN : Fin 8 → ℕ := ![1, 2, 3, 5, 8, 12, 16, 100]

theorem lo_eq (k : Fin 8) : Ideal.ofBits .f32 (loW k) = (((loN k : ℕ) : ℝ) : EReal) := by
  fin_cases k
  · simpa [loN, loW] using w_1
  · simpa [loN, loW] using w_2
  · simpa [loN, loW] using w_3
  · simpa [loN, loW] using w_4
  · simpa [loN, loW] using w_6
  · simpa [loN, loW] using w_9
  · simpa [loN, loW] using w_13
  · simpa [loN, loW] using w_17

theorem hi_eq (k : Fin 8) : Ideal.ofBits .f32 (hiW k) = (((hiN k : ℕ) : ℝ) : EReal) := by
  fin_cases k
  · simpa [hiN, hiW] using w_1
  · simpa [hiN, hiW] using w_2
  · simpa [hiN, hiW] using w_3
  · simpa [hiN, hiW] using w_5
  · simpa [hiN, hiW] using w_8
  · simpa [hiN, hiW] using w_12
  · simpa [hiN, hiW] using w_16
  · simpa [hiN, hiW] using w_100

/-- Each bin ends before the next one begins: the bins are pairwise disjoint. -/
theorem hi_lt_lo : ∀ j k : Fin 8, j < k → hiN j < loN k := by decide

end Cert.Zce
-- ==== Proof.ClassLaw.lean ====
/-
  The class of a density. The eight bins are pairwise disjoint, so at most one bin bit is set; added one after the
  other or reduced over the bins, the class is 0 (no bin) or k + 1 (bin k).
-/
import proofs.«122373_j68341519614312_2_alg».proof.Proof.Literals

namespace Cert.Zce

open Idealize.ShloMosaic

/-- A bit that is not one is zero. -/
theorem bit_eq_zero_of_ne_one : ∀ b : BitVec 1, b ≠ 1#1 → b = 0#1 := by decide

/-- The conjunction of two bits is one exactly when both are. -/
theorem andi_one_iff : ∀ c d : BitVec 1, IntOp.andi c d = 1#1 ↔ c = 1#1 ∧ d = 1#1 := by decide

/-- The bit of a decidable proposition is one exactly when it holds. -/
theorem ofBool_decide_eq_one (p : Prop) [Decidable p] : BitVec.ofBool (decide p) = 1#1 ↔ p := by
  by_cases h : p <;> simp [h]

/-- A bin's bit is set exactly when lo k ≤ v ≤ hi k. -/
theorem inBin_eq_one_iff (v : EReal) (k : Fin 8) :
    inBin v k = 1#1 ↔ (((loN k : ℕ) : ℝ) : EReal) ≤ v ∧ v ≤ (((hiN k : ℕ) : ℝ) : EReal) := by
  unfold inBin
  rw [lo_eq, hi_eq, andi_one_iff]
  simp only [Ideal.cmp]
  rw [ofBool_decide_eq_one, ofBool_decide_eq_one]

/-- Two different bins do not both hold `v`. -/
theorem inBin_disjoint (v : EReal) (j k : Fin 8) (hjk : j < k) (hj : inBin v j = 1#1) (hk : inBin v k = 1#1) : False := by
  rw [inBin_eq_one_iff] at hj hk
  have h1 : (((loN k : ℕ) : ℝ) : EReal) ≤ (((hiN j : ℕ) : ℝ) : EReal) := hk.1.trans hj.2
  have h2 : loN k ≤ hiN j := by exact_mod_cast h1
  exact absurd (hi_lt_lo j k hjk) (not_lt.mpr h2)

/-- No bin bit is set, or exactly one is. -/
theorem bins_cases (v : EReal) :
    (inBin v = fun _ => 0#1) ∨ ∃ k : Fin 8, inBin v = fun j => if j = k then 1#1 else 0#1 := by
  by_cases h : ∃ k, inBin v k = 1#1
  · obtain ⟨k, hk⟩ := h
    refine Or.inr ⟨k, funext fun j => ?_⟩
    by_cases hj : j = k
    · subst hj; simp [hk]
    · rw [if_neg hj]
      refine bit_eq_zero_of_ne_one _ fun hj1 => ?_
      rcases lt_or_gt_of_ne hj with h | h
      · exact inBin_disjoint v j k h hj1 hk
      · exact inBin_disjoint v k j h hk hj1
  · refine Or.inl (funext fun k => bit_eq_zero_of_ne_one _ fun hk => h ⟨k, hk⟩)

/-- The class added one bin after the other, over any eight bits. -/
def clsKb (b : Fin 8 → BitVec 1) : BitVec 32 :=
  IntOp.addi (IntOp.addi (IntOp.addi (IntOp.addi (IntOp.addi (IntOp.addi (IntOp.addi (IntOp.addi 0#32
    (Scalar.select (b 0) 1#32 0#32)) (Scalar.select (b 1) 2#32 0#32)) (Scalar.select (b 2) 3#32 0#32))
    (Scalar.select (b 3) 4#32 0#32)) (Scalar.select (b 4) 5#32 0#32)) (Scalar.select (b 5) 6#32 0#32))
    (Scalar.select (b 6) 7#32 0#32)) (Scalar.select (b 7) 8#32 0#32)

/-- The class reduced over the bins, over any eight bits. -/
def clsRb (b : Fin 8 → BitVec 1) : BitVec 32 :=
  (Finset.univ : Finset (Fin 8)).fold IntOp.addi 0#32
    (fun k => IntOp.muli ((b k).setWidth 32) (IntOp.addi (BitVec.ofNat 32 k.val) 1#32))

theorem clsK_eq (v : EReal) : clsK v = clsKb (inBin v) := rfl
theorem clsR_eq (v : EReal) : clsR v = clsRb (inBin v) := rfl

theorem clsb_none : clsKb (fun _ => 0#1) = 0#32 ∧ clsRb (fun _ => 0#1) = 0#32 := by decide

theorem clsb_bin : ∀ k : Fin 8, clsKb (fun j => if j = k then 1#1 else 0#1) = BitVec.ofNat 32 (k.val + 1)
    ∧ clsRb (fun j => if j = k then 1#1 else 0#1) = BitVec.ofNat 32 (k.val + 1) := by decide

/-- The class of a density, in both spellings: 0, or k + 1 for one bin k. -/
theorem cls_cases (v : EReal) :
    (clsK v = 0#32 ∧ clsR v = 0#32) ∨
      ∃ k : Fin 8, clsK v = BitVec.ofNat 32 (k.val + 1) ∧ clsR v = BitVec.ofNat 32 (k.val + 1) := by
  rw [clsK_eq, clsR_eq]
  rcases bins_cases v with h | ⟨k, h⟩
  · rw [h]; exact Or.inl clsb_none
  · rw [h]; exact Or.inr ⟨k, clsb_bin k⟩

end Cert.Zce
-- ==== Proof.PixelLaw.lean ====
/-
  One pixel: the channel-by-channel spelling of the loss and the reduce-and-gather spelling are equal for finite logits.

  With the class 0 both masks are 0 and both losses are 0. With the class k + 1 both masks are 1, the label is k, the
  sum of selects is the logit x k, the gather reads channel k inside the range, and what remains is
  (m + L) − x k = −((x k − m) − L) for the real numbers m (the maximum), x k, and any extended real L.
-/
import proofs.«122373_j68341519614312_2_alg».proof.Proof.ClassLaw

namespace Cert.Zce

open Idealize.ShloMosaic

/-! ## The integer facts at class 0 and at class k + 1 -/

theorem maskK_eq (c : BitVec 32) : maskK c = (((((maskBit c).setWidth 32).toInt : ℤ) : ℝ) : EReal) := rfl
theorem maskR_eq (c : BitVec 32) : maskR c = ((((maskBit c).toNat : ℕ) : ℝ) : EReal) := rfl

theorem maskK_zero : maskK 0#32 = 0 := by
  rw [maskK_eq, show ((maskBit 0#32).setWidth 32).toInt = 0 by decide]; simp
theorem maskR_zero : maskR 0#32 = 0 := by
  rw [maskR_eq, show (maskBit 0#32).toNat = 0 by decide]; simp

theorem maskK_bin (k : Fin 8) : maskK (BitVec.ofNat 32 (k.val + 1)) = 1 := by
  rw [maskK_eq, show ((maskBit (BitVec.ofNat 32 (k.val + 1))).setWidth 32).toInt = 1 by revert k; decide]; simp
theorem maskR_bin (k : Fin 8) : maskR (BitVec.ofNat 32 (k.val + 1)) = 1 := by
  rw [maskR_eq, show (maskBit (BitVec.ofNat 32 (k.val + 1))).toNat = 1 by revert k; decide]; simp

theorem labelOf_bin : ∀ k : Fin 8, labelOf (BitVec.ofNat 32 (k.val + 1)) = BitVec.ofNat 32 k.val := by decide
theorem wrapR_at : ∀ k : Fin 8, wrapR (BitVec.ofNat 32 k.val) = BitVec.ofNat 32 k.val := by decide
theorem inbR_at : ∀ k : Fin 8, inbR (BitVec.ofNat 32 k.val) = 1#1 := by decide
theorem clampR_at : ∀ k : Fin 8, clampR (BitVec.ofNat 32 k.val) = k := by decide

/-- The sum of eight selects, over any eight condition bits. -/
noncomputable def selKb (x : Fin 8 → EReal) (c : Fin 8 → BitVec 1) : EReal :=
  z32 + Scalar.select (c 0) (x 0) z32 + Scalar.select (c 1) (x 1) z32
    + Scalar.select (c 2) (x 2) z32 + Scalar.select (c 3) (x 3) z32
    + Scalar.select (c 4) (x 4) z32 + Scalar.select (c 5) (x 5) z32
    + Scalar.select (c 6) (x 6) z32 + Scalar.select (c 7) (x 7) z32

theorem selK_eq (x : Fin 8 → EReal) (lab : BitVec 32) :
    selK x lab = selKb x (fun j => IntOp.cmpi .eq lab (BitVec.ofNat 32 j.val)) := rfl

theorem eq_bits : ∀ k : Fin 8, (fun j : Fin 8 => IntOp.cmpi .eq (BitVec.ofNat 32 k.val) (BitVec.ofNat 32 j.val))
    = fun j => if j = k then 1#1 else 0#1 := by
  intro k; funext j; revert j k; decide

/-- At label k the sum of selects is the logit of channel k. -/
theorem selK_at (x : Fin 8 → EReal) (k : Fin 8) : selK x (BitVec.ofNat 32 k.val) = x k := by
  rw [selK_eq, eq_bits]
  fin_cases k <;> simp [selKb, Scalar.select, z32_eq]

/-! ## The maximum and the sum of exponentials, in both spellings -/

/-- The running maximum from the first logit is the fold of max from −∞. -/
theorem maxK_eq_maxR (x : Fin 8 → EReal) : maxK x = maxR x := by
  unfold maxR
  rw [ninf32_eq, max_bot_left]
  show maxK x = Finset.univ.sup x
  refine le_antisymm ?_ (Finset.sup_le fun i _ => ?_)
  · simp only [maxK, max_le_iff]
    exact ⟨⟨⟨⟨⟨⟨⟨Finset.le_sup (Finset.mem_univ _), Finset.le_sup (Finset.mem_univ _)⟩,
      Finset.le_sup (Finset.mem_univ _)⟩, Finset.le_sup (Finset.mem_univ _)⟩, Finset.le_sup (Finset.mem_univ _)⟩,
      Finset.le_sup (Finset.mem_univ _)⟩, Finset.le_sup (Finset.mem_univ _)⟩, Finset.le_sup (Finset.mem_univ _)⟩
  · fin_cases i <;> simp [maxK]

/-- The same eight exponentials, accumulated from zero or summed. -/
theorem sumexpK_eq (x : Fin 8 → EReal) (m : EReal) :
    sumexpK x m = z32 + ∑ k : Fin 8, Ideal.exp (x k - m) := by
  unfold sumexpK
  rw [Fin.sum_univ_eight]
  simp only [add_assoc]

/-- The maximum of two reals, as an extended real. -/
theorem coe_max_real (a b : ℝ) : ((max a b : ℝ) : EReal) = max (a : EReal) (b : EReal) :=
  EReal.coe_strictMono.monotone.map_max

/-- The maximum of real logits is a real number. -/
theorem maxK_real (y : Fin 8 → ℝ) : ∃ μ : ℝ, maxK (fun c => ((y c : ℝ) : EReal)) = (μ : EReal) :=
  ⟨max (max (max (max (max (max (max (y 0) (y 1)) (y 2)) (y 3)) (y 4)) (y 5)) (y 6)) (y 7), by
    simp only [maxK, coe_max_real]⟩

/-! ## The algebra left -/

/-- For real numbers μ, a and any extended real L: (μ + L) − a = −((a − μ) − L). -/
theorem sub_law (μ a : ℝ) (L : EReal) :
    (μ : EReal) + L - (a : EReal) = -(((a : EReal) - (μ : EReal)) - L) := by
  rw [← EReal.coe_sub, EReal.neg_sub (Or.inl (EReal.coe_ne_bot _)) (Or.inl (EReal.coe_ne_top _))]
  rw [sub_eq_add_neg, add_right_comm]
  congr 1
  norm_cast
  ring

/-! ## The pixel -/

theorem pix_eq (x : Fin 8 → EReal) (v : EReal) (hx : ∀ c, x c ≠ ⊤ ∧ x c ≠ ⊥) : pixK x v = pixR x v := by
  unfold pixK pixR
  rcases cls_cases v with ⟨hK, hR⟩ | ⟨k, hK, hR⟩
  · rw [hK, hR, maskK_zero, maskR_zero, mul_zero, mul_zero]
  · rw [hK, hR, labelOf_bin, selK_at, wrapR_at, inbR_at, clampR_at, maskK_bin, maskR_bin, mul_one, mul_one]
    show maxK x + Ideal.log (sumexpK x (maxK x)) - x k = -(logpR x k)
    unfold logpR
    rw [← maxK_eq_maxR, ← sumexpK_eq]
    lift x to Fin 8 → ℝ using hx with y
    obtain ⟨μ, hμ⟩ := maxK_real y
    rw [hμ]
    exact sub_law μ (y k) _

end Cert.Zce
-- ==== Proof.Pixels.lean ====
/-
  Every pixel of the two arrays of losses agrees when every logit is a real number, and so do the two total losses.
-/
import proofs.«122373_j68341519614312_2_alg».proof.Proof.PixelLaw

namespace Cert.Zce

open Idealize.ShloMosaic

theorem pixels_eq (X : FVec Ideal ⟨4, ![32, 8, 256, 256]⟩ .f32) (D : FVec Ideal ⟨4, ![32, 1, 512, 512]⟩ .f32)
    (hX : ∀ i, X i ≠ ⊤ ∧ X i ≠ ⊥) : pixelsK X D = pixelsR X D := by
  funext b r q
  exact pix_eq _ _ (fun _ => hX _)

theorem loss_eq (X : FVec Ideal ⟨4, ![32, 8, 256, 256]⟩ .f32) (D : FVec Ideal ⟨4, ![32, 1, 512, 512]⟩ .f32)
    (hX : ∀ i, X i ≠ ⊤ ∧ X i ≠ ⊥) : lossOf (pixelsK X D) = lossOf (pixelsR X D) := by
  rw [pixels_eq X D hX]

end Cert.Zce
-- ==== Proof.PreFinite.lean ====
/-
  The precondition says every logit is a real number: it is the conjunction of two reductions by "and" over
  |x| < +∞, and an extended real whose absolute value is below +∞ is neither +∞ nor −∞.
-/
import proofs.«122373_j68341519614312_2_alg».proof.Pre_finite_inputs
import proofs.«122373_j68341519614312_2_alg».proof.Proof.Gen.Pre_finite_inputs
import Idealize.ShloMosaic.Lib.ReduceAll
import Idealize.ShloMosaic.PureOps.Ideal
import Idealize.ShloMosaic.Lib.ValueIdx

namespace Cert.Zce

open Idealize.ShloMosaic

instance : Subsingleton Cert.Pre_finite_inputs.S_.Idx := ⟨fun a b => funext fun d => d.elim0⟩

/-- The f32 word of +∞ is the top element. -/
theorem pinf32_eq : Ideal.ofBits .f32 0x7F800000#32 = ⊤ := by simp [Ideal.ofBits, Ideal.ieee]

/-- An extended real with |x| < +∞ is a real number. -/
theorem finite_of_abs_lt (x : EReal)
    (h : Ideal.cmp .olt (max x (-x)) (Ideal.ofBits .f32 0x7F800000#32) = 1#1) : x ≠ ⊤ ∧ x ≠ ⊥ := by
  rw [pinf32_eq] at h
  induction x using EReal.rec with
  | bot => simp [Ideal.cmp] at h
  | coe r => exact ⟨EReal.coe_ne_top r, EReal.coe_ne_bot r⟩
  | top => simp [Ideal.cmp] at h

theorem finite_of_pre (X : FVec Ideal Cert.Pre_finite_inputs.S32x8x256x256 .f32)
    (D : FVec Ideal Cert.Pre_finite_inputs.S32x1x512x512 .f32)
    (h : Cert.Pre_finite_inputs.fn (F := Ideal) X D = fun _ => 1#1) : ∀ i, X i ≠ ⊤ ∧ X i ≠ ⊥ := by
  intro i
  have h0 := congrFun h ValueIdx.ix0
  dsimp only [Cert.Pre_finite_inputs.fn] at h0
  have h1 := (IntOp.andi_eq_one.1 h0).1
  have h2 := Host.reduce_andi_all _ _ _ _ _ h1 i
  exact finite_of_abs_lt (X i) h2

end Cert.Zce
-- ==== Proof.RefRun.lean ====
/-
  The reference program as a straight line of host operations, and its run.

  The program's entry function calls two outlined functions (a log-softmax over the channel axis and a
  take-along-axis gather); with their bodies written at the call sites over the calls' own buffers the
  whole program is one list of 83 operations, and every weakly fair execution ends with each buffer at the
  fold of the operations' results over the launch contents.
-/
import proofs.«122373_j68341519614312_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The transposed logits' buffer, the log-softmax's result and the broadcast labels, as the typed
    references the two calls are made at. -/
abbrev a28 : TRef sig ⟨S32x256x256x8, .f32⟩ := .of main_v28
abbrev a29 : TRef sig ⟨S32x256x256x8, .f32⟩ := .of main_v29
abbrev a30 : TRef sig ⟨S32x256x256x1, .i32⟩ := .of main_v30

/-- The program's 83 operations in order, the two calls' bodies in place. -/
abbrev ops : List (HloOp τ sig (Elt F)) :=
  [ StableHlo.nullary main_cst (fun i => FloatOps.ofBits .f32 (lit0 (S8.rowMajor i))),
    StableHlo.nullary main_cst_0 (fun i => FloatOps.ofBits .f32 (lit1 (S8.rowMajor i))),
    StableHlo.reshape main_arg1 main_v0 rfl shapeCasts_S32x1x512x512_S32x1x256x2x256x2,
    StableHlo.nullary main_cst_1 (constant S_ .f32 0x00000000#32),
    StableHlo.binary main_v0 main_cst_1 main_v1 ((fun x v => Host.reduceAdd x v reducesTo_S32x1x256x2x256x2_S32x1x256x256_d3_5 h_S_) : (⟨S32x1x256x2x256x2, .f32⟩ : BufTy).Contents (Elt F) → (⟨S_, .f32⟩ : BufTy).Contents (Elt F) → (⟨S32x1x256x256, .f32⟩ : BufTy).Contents (Elt F)),
    StableHlo.reshape main_v1 main_v2 rfl shapeCasts_S32x1x256x256_S32x256x256,
    StableHlo.unary main_v2 main_v3 (broadcastInDim S32x256x256x1 ![0, 1, 2] bcast_S32x256x256_S32x256x256x1_0_1_2 : (⟨S32x256x256, .f32⟩ : BufTy).Contents (Elt F) → (⟨S32x256x256x1, .f32⟩ : BufTy).Contents (Elt F)),
    StableHlo.unary main_cst main_v4 (broadcastInDim S1x1x1x8 ![3] bcast_S8_S1x1x1x8_3 : (⟨S8, .f32⟩ : BufTy).Contents (Elt F) → (⟨S1x1x1x8, .f32⟩ : BufTy).Contents (Elt F)),
    StableHlo.unary main_v3 main_v5 (broadcastInDim S32x256x256x8 ![0, 1, 2, 3] bcast_S32x256x256x1_S32x256x256x8_0_1_2_3 : (⟨S32x256x256x1, .f32⟩ : BufTy).Contents (Elt F) → (⟨S32x256x256x8, .f32⟩ : BufTy).Contents (Elt F)),
    StableHlo.unary main_v4 main_v6 (broadcastInDim S32x256x256x8 ![0, 1, 2, 3] bcast_S1x1x1x8_S32x256x256x8_0_1_2_3 : (⟨S1x1x1x8, .f32⟩ : BufTy).Contents (Elt F) → (⟨S32x256x256x8, .f32⟩ : BufTy).Contents (Elt F)),
    StableHlo.binary main_v5 main_v6 main_v7 (cmpf .oge : (⟨S32x256x256x8, .f32⟩ : BufTy).Contents (Elt F) → (⟨S32x256x256x8, .f32⟩ : BufTy).Contents (Elt F) → (⟨S32x256x256x8, .i1⟩ : BufTy).Contents (Elt F)),
    StableHlo.unary main_v2 main_v8 (broadcastInDim S32x256x256x1 ![0, 1, 2] bcast_S32x256x256_S32x256x256x1_0_1_2 : (⟨S32x256x256, .f32⟩ : BufTy).Contents (Elt F) → (⟨S32x256x256x1, .f32⟩ : BufTy).Contents (Elt F)),
    StableHlo.unary main_cst_0 main_v9 (broadcastInDim S1x1x1x8 ![3] bcast_S8_S1x1x1x8_3 : (⟨S8, .f32⟩ : BufTy).Contents (Elt F) → (⟨S1x1x1x8, .f32⟩ : BufTy).Contents (Elt F)),
    StableHlo.unary main_v8 main_v10 (broadcastInDim S32x256x256x8 ![0, 1, 2, 3] bcast_S32x256x256x1_S32x256x256x8_0_1_2_3 : (⟨S32x256x256x1, .f32⟩ : BufTy).Contents (Elt F) → (⟨S32x256x256x8, .f32⟩ : BufTy).Contents (Elt F)),
    StableHlo.unary main_v9 main_v11 (broadcastInDim S32x256x256x8 ![0, 1, 2, 3] bcast_S1x1x1x8_S32x256x256x8_0_1_2_3 : (⟨S1x1x1x8, .f32⟩ : BufTy).Contents (Elt F) → (⟨S32x256x256x8, .f32⟩ : BufTy).Contents (Elt F)),
    StableHlo.binary main_v10 main_v11 main_v12 (cmpf .ole : (⟨S32x256x256x8, .f32⟩ : BufTy).Contents (Elt F) → (⟨S32x256x256x8, .f32⟩ : BufTy).Contents (Elt F) → (⟨S32x256x256x8, .i1⟩ : BufTy).Contents (Elt F)),
    StableHlo.binary main_v7 main_v12 main_v13 (andi : (⟨S32x256x256x8, .i1⟩ : BufTy).Contents (Elt F) → (⟨S32x256x256x8, .i1⟩ : BufTy).Contents (Elt F) → (⟨S32x256x256x8, .i1⟩ : BufTy).Contents (Elt F)),
    StableHlo.nullary main_v14 (iotaInDim S8 32 0),
    StableHlo.nullary main_c (constantI S_ 32 1#32),
    StableHlo.unary main_c main_v15 (broadcastInDim S8 ![] bcast_S_S8 : (⟨S_, .i32⟩ : BufTy).Contents (Elt F) → (⟨S8, .i32⟩ : BufTy).Contents (Elt F)),
    StableHlo.binary main_v14 main_v15 main_v16 (addi : (⟨S8, .i32⟩ : BufTy).Contents (Elt F) → (⟨S8, .i32⟩ : BufTy).Contents (Elt F) → (⟨S8, .i32⟩ : BufTy).Contents (Elt F)),
    StableHlo.unary main_v13 main_v17 ((extui 32 · natLt_1_32) : (⟨S32x256x256x8, .i1⟩ : BufTy).Contents (Elt F) → (⟨S32x256x256x8, .i32⟩ : BufTy).Contents (Elt F)),
    StableHlo.unary main_v16 main_v18 (broadcastInDim S1x1x1x8 ![3] bcast_S8_S1x1x1x8_3 : (⟨S8, .i32⟩ : BufTy).Contents (Elt F) → (⟨S1x1x1x8, .i32⟩ : BufTy).Contents (Elt F)),
    StableHlo.unary main_v18 main_v19 (broadcastInDim S32x256x256x8 ![0, 1, 2, 3] bcast_S1x1x1x8_S32x256x256x8_0_1_2_3 : (⟨S1x1x1x8, .i32⟩ : BufTy).Contents (Elt F) → (⟨S32x256x256x8, .i32⟩ : BufTy).Contents (Elt F)),
    StableHlo.binary main_v17 main_v19 main_v20 (muli : (⟨S32x256x256x8, .i32⟩ : BufTy).Contents (Elt F) → (⟨S32x256x256x8, .i32⟩ : BufTy).Contents (Elt F) → (⟨S32x256x256x8, .i32⟩ : BufTy).Contents (Elt F)),
    StableHlo.nullary main_c_2 (constantI S_ 32 0#32),
    StableHlo.binary main_v20 main_c_2 main_v21 ((fun x v => Host.reduce IntOp.addi x v reducesTo_S32x256x256x8_S32x256x256_d3 h_S_) : (⟨S32x256x256x8, .i32⟩ : BufTy).Contents (Elt F) → (⟨S_, .i32⟩ : BufTy).Contents (Elt F) → (⟨S32x256x256, .i32⟩ : BufTy).Contents (Elt F)),
    StableHlo.nullary main_c_3 (constantI S_ 32 0#32),
    StableHlo.unary main_c_3 main_v22 (broadcastInDim S32x256x256 ![] bcast_S_S32x256x256 : (⟨S_, .i32⟩ : BufTy).Contents (Elt F) → (⟨S32x256x256, .i32⟩ : BufTy).Contents (Elt F)),
    StableHlo.binary main_v21 main_v22 main_v23 (cmpi .sgt : (⟨S32x256x256, .i32⟩ : BufTy).Contents (Elt F) → (⟨S32x256x256, .i32⟩ : BufTy).Contents (Elt F) → (⟨S32x256x256, .i1⟩ : BufTy).Contents (Elt F)),
    StableHlo.nullary main_c_4 (constantI S_ 32 1#32),
    StableHlo.unary main_c_4 main_v24 (broadcastInDim S32x256x256 ![] bcast_S_S32x256x256 : (⟨S_, .i32⟩ : BufTy).Contents (Elt F) → (⟨S32x256x256, .i32⟩ : BufTy).Contents (Elt F)),
    StableHlo.binary main_v21 main_v24 main_v25 (subi : (⟨S32x256x256, .i32⟩ : BufTy).Contents (Elt F) → (⟨S32x256x256, .i32⟩ : BufTy).Contents (Elt F) → (⟨S32x256x256, .i32⟩ : BufTy).Contents (Elt F)),
    StableHlo.nullary main_c_5 (constantI S_ 32 0#32),
    StableHlo.unary main_c_5 main_v26 (broadcastInDim S32x256x256 ![] bcast_S_S32x256x256 : (⟨S_, .i32⟩ : BufTy).Contents (Elt F) → (⟨S32x256x256, .i32⟩ : BufTy).Contents (Elt F)),
    StableHlo.binary main_v25 main_v26 main_v27 (maxsi : (⟨S32x256x256, .i32⟩ : BufTy).Contents (Elt F) → (⟨S32x256x256, .i32⟩ : BufTy).Contents (Elt F) → (⟨S32x256x256, .i32⟩ : BufTy).Contents (Elt F)),
    StableHlo.unary main_arg0 main_v28 ((transpose S32x256x256x8 [0, 2, 3, 1] · transposes_S32x8x256x256_S32x256x256x8_0_2_3_1) : (⟨S32x8x256x256, .f32⟩ : BufTy).Contents (Elt F) → (⟨S32x256x256x8, .f32⟩ : BufTy).Contents (Elt F)),
    StableHlo.TRef.nullary main_call0.cst (constant S_ .f32 0xFF800000#32),
    StableHlo.TRef.binary a28 main_call0.cst main_call0.v0 (fun x v => Host.reduce FloatOps.maximumf x v reducesTo_S32x256x256x8_S32x256x256_d3 h_S_),
    StableHlo.TRef.nullary main_call0.cst_0 (constant S_ .f32 0xFF800000#32),
    StableHlo.TRef.unary main_call0.cst_0 main_call0.v1 (broadcastInDim S32x256x256 ![] bcast_S_S32x256x256),
    StableHlo.TRef.binary main_call0.v1 main_call0.v0 main_call0.v2 maximumf,
    StableHlo.TRef.unary main_call0.v2 main_call0.v3 (broadcastInDim S32x256x256x1 ![0, 1, 2] bcast_S32x256x256_S32x256x256x1_0_1_2),
    StableHlo.TRef.unary main_call0.v3 main_call0.v4 (broadcastInDim S32x256x256x8 ![0, 1, 2, 3] bcast_S32x256x256x1_S32x256x256x8_0_1_2_3),
    StableHlo.TRef.binary a28 main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S32x256x256x8_S32x256x256_d3 h_S_),
    StableHlo.TRef.unary main_call0.v7 main_call0.v8 (broadcastInDim S32x256x256x1 ![0, 1, 2] bcast_S32x256x256_S32x256x256x1_0_1_2),
    StableHlo.TRef.unary main_call0.v8 main_call0.v9 Host.log,
    StableHlo.TRef.unary main_call0.v9 main_call0.v10 (broadcastInDim S32x256x256x8 ![0, 1, 2, 3] bcast_S32x256x256x1_S32x256x256x8_0_1_2_3),
    StableHlo.TRef.binary main_call0.v5 main_call0.v10 main_call0.v11 subf,
    StableHlo.unary main_v27 main_v30 (broadcastInDim S32x256x256x1 ![0, 1, 2] bcast_S32x256x256_S32x256x256x1_0_1_2 : (⟨S32x256x256, .i32⟩ : BufTy).Contents (Elt F) → (⟨S32x256x256x1, .i32⟩ : BufTy).Contents (Elt F)),
    StableHlo.TRef.nullary main_call1.c (constantI S_ 32 0#32),
    StableHlo.TRef.unary main_call1.c main_call1.v0 (broadcastInDim S32x256x256x1 ![] bcast_S_S32x256x256x1),
    StableHlo.TRef.binary a30 main_call1.v0 main_call1.v1 (cmpi .slt),
    StableHlo.TRef.nullary main_call1.c_0 (constantI S_ 32 8#32),
    StableHlo.TRef.unary main_call1.c_0 main_call1.v2 (broadcastInDim S32x256x256x1 ![] bcast_S_S32x256x256x1),
    StableHlo.TRef.binary a30 main_call1.v2 main_call1.v3 addi,
    StableHlo.TRef.ternary main_call1.v1 main_call1.v3 a30 main_call1.v4 select,
    StableHlo.TRef.reshape main_call1.v4 main_call1.v5 rfl shapeCasts_S32x256x256x1_S32x256x256x1x1,
    StableHlo.TRef.nullary main_call1.c_1 (constantI S1 32 7#32),
    StableHlo.TRef.nullary main_call1.c_2 (constantI S_ 32 0#32),
    StableHlo.TRef.unary main_call1.c_2 main_call1.v6 (broadcastInDim S32x256x256x1x1 ![] bcast_S_S32x256x256x1x1),
    StableHlo.TRef.binary main_call1.v5 main_call1.v6 main_call1.v7 (cmpi .sge),
    StableHlo.TRef.unary main_call1.c_1 main_call1.v8 (broadcastInDim S1x1x1x1x1 ![4] bcast_S1_S1x1x1x1x1_4),
    StableHlo.TRef.unary main_call1.v8 main_call1.v9 (broadcastInDim S32x256x256x1x1 ![0, 1, 2, 3, 4] bcast_S1x1x1x1x1_S32x256x256x1x1_0_1_2_3_4),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S32x256x256x1x1_S32x256x256x1_d4 h_S_),
    StableHlo.TRef.binary a29 main_call1.v5 main_call1.v13 (fun x i => Host.gather gather_S32x256x256x8_S32x256x256x1x1_S32x256x256x1_n_3_012_012_3_4_1111 x i),
    StableHlo.TRef.nullary main_call1.cst (constant S_ .f32 0x7FC00000#32),
    StableHlo.TRef.unary main_call1.cst main_call1.v14 (broadcastInDim S32x256x256x1 ![] bcast_S_S32x256x256x1),
    StableHlo.TRef.ternary main_call1.v12 main_call1.v13 main_call1.v14 main_call1.v15 select,
    StableHlo.reshape main_v31 main_v32 rfl shapeCasts_S32x256x256x1_S32x256x256,
    StableHlo.unary main_v32 main_v33 (Host.negf : (⟨S32x256x256, .f32⟩ : BufTy).Contents (Elt F) → (⟨S32x256x256, .f32⟩ : BufTy).Contents (Elt F)),
    StableHlo.unary main_v23 main_v34 (uitofp .f32 : (⟨S32x256x256, .i1⟩ : BufTy).Contents (Elt F) → (⟨S32x256x256, .f32⟩ : BufTy).Contents (Elt F)),
    StableHlo.binary main_v33 main_v34 main_v35 (mulf : (⟨S32x256x256, .f32⟩ : BufTy).Contents (Elt F) → (⟨S32x256x256, .f32⟩ : BufTy).Contents (Elt F) → (⟨S32x256x256, .f32⟩ : BufTy).Contents (Elt F)),
    StableHlo.nullary main_cst_6 (constant S_ .f32 0x00000000#32),
    StableHlo.binary main_v35 main_cst_6 main_v36 ((fun x v => Host.reduceAdd x v reducesTo_S32x256x256_S_d0_1_2 h_S_) : (⟨S32x256x256, .f32⟩ : BufTy).Contents (Elt F) → (⟨S_, .f32⟩ : BufTy).Contents (Elt F) → (⟨S_, .f32⟩ : BufTy).Contents (Elt F)),
    StableHlo.nullary main_cst_7 (constant S_ .f32 0x42000000#32),
    StableHlo.binary main_v36 main_cst_7 main_v37 (Host.divf : (⟨S_, .f32⟩ : BufTy).Contents (Elt F) → (⟨S_, .f32⟩ : BufTy).Contents (Elt F) → (⟨S_, .f32⟩ : BufTy).Contents (Elt F)) ]

set_option maxRecDepth 4096 in
/-- The entry function is that straight line: the outlined functions unfolded at their calls, sequencing reassociated
    (sequencing computes: grafting a continuation onto a line of steps is the longer line). -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., reshape_bufs_sub .., nullary_bufs_sub .., binary_bufs_sub .., reshape_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., nullary_bufs_sub .., unary_bufs_sub .., binary_bufs_sub .., unary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., binary_bufs_sub .., nullary_bufs_sub .., binary_bufs_sub .., nullary_bufs_sub .., binary_bufs_sub ..⟩

/-- Every weakly fair execution of the program terminates, and every final state has each buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefTerms.lean ====
/-
  The reference program's stages as closed terms of the host operations: the density and the bins' bits, the
  class with its mask and label, the log-softmax of the transposed logits, the gather at the label, and the
  masked mean. Each mirrors the operations of the program's text, for any float values.
-/
import proofs.«122373_j68341519614312_2_alg».proof.Proof.Gen.ReferenceIdeal

noncomputable section

namespace Cert.ReferenceIdeal.RefValue

open Cert.ReferenceIdeal Cert.ReferenceIdeal.Gen Idealize.ShloMosaic

variable {F : FTy → Type} [FloatOps F]

/-! ## The stages' terms -/

/-- The density map: the ground-truth map cut into 2×2 blocks, each block summed. -/
def gtV (D : FVec F S32x1x512x512 .f32) : FVec F S32x1x256x256 .f32 :=
  Host.reduceAdd (shapeCast S32x1x256x2x256x2 D shapeCasts_S32x1x512x512_S32x1x256x2x256x2) (constant S_ .f32 0x00000000#32)
    reducesTo_S32x1x256x2x256x2_S32x1x256x256_d3_5 h_S_

/-- The density with its unit axis dropped. -/
def denV (D : FVec F S32x1x512x512 .f32) : FVec F S32x256x256 .f32 :=
  shapeCast S32x256x256 (gtV D) shapeCasts_S32x1x256x256_S32x256x256

/-- The bins' lower and upper ends as arrays of 8. -/
def lo8 : FVec F S8 .f32 := fun i => FloatOps.ofBits .f32 (lit0 (S8.rowMajor i))
def hi8 : FVec F S8 .f32 := fun i => FloatOps.ofBits .f32 (lit1 (S8.rowMajor i))

/-- The bins' bits: lo k ≤ density ≤ hi k, per pixel and bin. -/
def inBinV (den : FVec F S32x256x256 .f32) : IVec S32x256x256x8 1 :=
  andi
    (cmpf .oge
      (broadcastInDim S32x256x256x8 ![0, 1, 2, 3] bcast_S32x256x256x1_S32x256x256x8_0_1_2_3
        (broadcastInDim S32x256x256x1 ![0, 1, 2] bcast_S32x256x256_S32x256x256x1_0_1_2 den))
      (broadcastInDim S32x256x256x8 ![0, 1, 2, 3] bcast_S1x1x1x8_S32x256x256x8_0_1_2_3
        (broadcastInDim S1x1x1x8 ![3] bcast_S8_S1x1x1x8_3 (lo8 (F := F)))))
    (cmpf .ole
      (broadcastInDim S32x256x256x8 ![0, 1, 2, 3] bcast_S32x256x256x1_S32x256x256x8_0_1_2_3
        (broadcastInDim S32x256x256x1 ![0, 1, 2] bcast_S32x256x256_S32x256x256x1_0_1_2 den))
      (broadcastInDim S32x256x256x8 ![0, 1, 2, 3] bcast_S1x1x1x8_S32x256x256x8_0_1_2_3
        (broadcastInDim S1x1x1x8 ![3] bcast_S8_S1x1x1x8_3 (hi8 (F := F)))))

/-- The bins' weights k + 1 over every pixel. -/
def wtsV : IVec S32x256x256x8 32 :=
  broadcastInDim S32x256x256x8 ![0, 1, 2, 3] bcast_S1x1x1x8_S32x256x256x8_0_1_2_3
    (broadcastInDim S1x1x1x8 ![3] bcast_S8_S1x1x1x8_3
      (addi (iotaInDim S8 32 0) (broadcastInDim S8 ![] bcast_S_S8 (constantI S_ 32 1#32))))

/-- The class: the bins' bits, widened, times the weights, summed over the bins. -/
def clsV (bits : IVec S32x256x256x8 1) : IVec S32x256x256 32 :=
  Host.reduce IntOp.addi (muli (extui 32 bits natLt_1_32) wtsV) (constantI S_ 32 0#32)
    reducesTo_S32x256x256x8_S32x256x256_d3 h_S_

/-- The mask bit: the class is positive. -/
def maskV (bits : IVec S32x256x256x8 1) : IVec S32x256x256 1 :=
  cmpi .sgt (clsV bits) (broadcastInDim S32x256x256 ![] bcast_S_S32x256x256 (constantI S_ 32 0#32))

/-- The label: class − 1, at least 0. -/
def labelV (bits : IVec S32x256x256x8 1) : IVec S32x256x256 32 :=
  maxsi (subi (clsV bits) (broadcastInDim S32x256x256 ![] bcast_S_S32x256x256 (constantI S_ 32 1#32)))
    (broadcastInDim S32x256x256 ![] bcast_S_S32x256x256 (constantI S_ 32 0#32))

/-- The logits with the channel axis last. -/
def xtV (X : FVec F S32x8x256x256 .f32) : FVec F S32x256x256x8 .f32 :=
  transpose S32x256x256x8 [0, 2, 3, 1] X transposes_S32x8x256x256_S32x256x256x8_0_2_3_1

/-- The logits' maximum over the channels, from −∞ and once more against −∞. -/
def maxV (xt : FVec F S32x256x256x8 .f32) : FVec F S32x256x256 .f32 :=
  maximumf (broadcastInDim S32x256x256 ![] bcast_S_S32x256x256 (constant S_ .f32 0xFF800000#32))
    (Host.reduce FloatOps.maximumf xt (constant S_ .f32 0xFF800000#32) reducesTo_S32x256x256x8_S32x256x256_d3 h_S_)

/-- The logits minus their maximum. -/
def shiftV (xt : FVec F S32x256x256x8 .f32) : FVec F S32x256x256x8 .f32 :=
  subf xt (broadcastInDim S32x256x256x8 ![0, 1, 2, 3] bcast_S32x256x256x1_S32x256x256x8_0_1_2_3
    (broadcastInDim S32x256x256x1 ![0, 1, 2] bcast_S32x256x256_S32x256x256x1_0_1_2 (maxV xt)))

/-- The sum over the channels of the exponentials, from zero. -/
def sumexpV (xt : FVec F S32x256x256x8 .f32) : FVec F S32x256x256 .f32 :=
  Host.reduceAdd (Host.exp (shiftV xt)) (constant S_ .f32 0x00000000#32) reducesTo_S32x256x256x8_S32x256x256_d3 h_S_

/-- The log-softmax over the channels. -/
def logpV (xt : FVec F S32x256x256x8 .f32) : FVec F S32x256x256x8 .f32 :=
  subf (shiftV xt) (broadcastInDim S32x256x256x8 ![0, 1, 2, 3] bcast_S32x256x256x1_S32x256x256x8_0_1_2_3
    (Host.log (broadcastInDim S32x256x256x1 ![0, 1, 2] bcast_S32x256x256_S32x256x256x1_0_1_2 (sumexpV xt))))

/-- The labels with a unit axis, a negative one moved up by 8. -/
def wrapV (lab : IVec S32x256x256 32) : IVec S32x256x256x1 32 :=
  select
    (cmpi .slt (broadcastInDim S32x256x256x1 ![0, 1, 2] bcast_S32x256x256_S32x256x256x1_0_1_2 lab)
      (broadcastInDim S32x256x256x1 ![] bcast_S_S32x256x256x1 (constantI S_ 32 0#32)))
    (addi (broadcastInDim S32x256x256x1 ![0, 1, 2] bcast_S32x256x256_S32x256x256x1_0_1_2 lab)
      (broadcastInDim S32x256x256x1 ![] bcast_S_S32x256x256x1 (constantI S_ 32 8#32)))
    (broadcastInDim S32x256x256x1 ![0, 1, 2] bcast_S32x256x256_S32x256x256x1_0_1_2 lab)

/-- The gather's start indices: one more unit axis. -/
def idxV (lab : IVec S32x256x256 32) : IVec S32x256x256x1x1 32 :=
  shapeCast S32x256x256x1x1 (wrapV lab) shapeCasts_S32x256x256x1_S32x256x256x1x1

/-- The index is inside 0 … 7. -/
def inbV (lab : IVec S32x256x256 32) : IVec S32x256x256x1 1 :=
  Host.reduce IntOp.andi
    (andi
      (cmpi .sge (idxV lab) (broadcastInDim S32x256x256x1x1 ![] bcast_S_S32x256x256x1x1 (constantI S_ 32 0#32)))
      (cmpi .sle (idxV lab)
        (broadcastInDim S32x256x256x1x1 ![0, 1, 2, 3, 4] bcast_S1x1x1x1x1_S32x256x256x1x1_0_1_2_3_4
          (broadcastInDim S1x1x1x1x1 ![4] bcast_S1_S1x1x1x1x1_4 (constantI S1 32 7#32)))))
    (constantI S_ 1 1#1) reducesTo_S32x256x256x1x1_S32x256x256x1_d4 h_S_

/-- The log-softmax at the label, or the NaN word's value outside the range. -/
def takenV (lp : FVec F S32x256x256x8 .f32) (lab : IVec S32x256x256 32) : FVec F S32x256x256x1 .f32 :=
  select (inbV lab)
    (Host.gather gather_S32x256x256x8_S32x256x256x1x1_S32x256x256x1_n_3_012_012_3_4_1111 lp (idxV lab))
    (broadcastInDim S32x256x256x1 ![] bcast_S_S32x256x256x1 (constant S_ .f32 0x7FC00000#32))

/-- The pixels' losses: minus the taken value, times the mask as a float. -/
def pixV (tk : FVec F S32x256x256x1 .f32) (mb : IVec S32x256x256 1) : FVec F S32x256x256 .f32 :=
  mulf (Host.negf (shapeCast S32x256x256 tk shapeCasts_S32x256x256x1_S32x256x256)) (uitofp .f32 mb)

/-- The loss: the pixels' losses summed from zero, over 32. -/
def lossV (tk : FVec F S32x256x256x1 .f32) (mb : IVec S32x256x256 1) : FVec F S_ .f32 :=
  Host.divf (Host.reduceAdd (pixV tk mb) (constant S_ .f32 0x00000000#32) reducesTo_S32x256x256_S_d0_1_2 h_S_)
    (constant S_ .f32 0x42000000#32)

/-- The program's result as a term of its two arguments. -/
def resultV (X : FVec F S32x8x256x256 .f32) (D : FVec F S32x1x512x512 .f32) : FVec F S_ .f32 :=
  lossV (takenV (logpV (xtV X)) (labelV (inBinV (denV D)))) (maskV (inBinV (denV D)))

end Cert.ReferenceIdeal.RefValue

end
-- ==== Proof.RefSegs.lean ====
/-
  The reference program's line cut into five parts: the density and the bins' bits, the class with its mask
  and label, the log-softmax of the transposed logits, the gather at the label, and the masked mean. The line
  is their concatenation, and the contents after a concatenation are the contents after its second part run
  from the contents after its first.
-/
import proofs.«122373_j68341519614312_2_alg».proof.Proof.RefRun
import proofs.«122373_j68341519614312_2_alg».proof.Proof.RefTerms

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The line in five parts -/

abbrev opsA : List (HloOp τ sig (Elt F)) :=
  [ StableHlo.nullary main_cst (fun i => FloatOps.ofBits .f32 (lit0 (S8.rowMajor i))),
    StableHlo.nullary main_cst_0 (fun i => FloatOps.ofBits .f32 (lit1 (S8.rowMajor i))),
    StableHlo.reshape main_arg1 main_v0 rfl shapeCasts_S32x1x512x512_S32x1x256x2x256x2,
    StableHlo.nullary main_cst_1 (constant S_ .f32 0x00000000#32),
    StableHlo.binary main_v0 main_cst_1 main_v1 ((fun x v => Host.reduceAdd x v reducesTo_S32x1x256x2x256x2_S32x1x256x256_d3_5 h_S_) : (⟨S32x1x256x2x256x2, .f32⟩ : BufTy).Contents (Elt F) → (⟨S_, .f32⟩ : BufTy).Contents (Elt F) → (⟨S32x1x256x256, .f32⟩ : BufTy).Contents (Elt F)),
    StableHlo.reshape main_v1 main_v2 rfl shapeCasts_S32x1x256x256_S32x256x256,
    StableHlo.unary main_v2 main_v3 (broadcastInDim S32x256x256x1 ![0, 1, 2] bcast_S32x256x256_S32x256x256x1_0_1_2 : (⟨S32x256x256, .f32⟩ : BufTy).Contents (Elt F) → (⟨S32x256x256x1, .f32⟩ : BufTy).Contents (Elt F)),
    StableHlo.unary main_cst main_v4 (broadcastInDim S1x1x1x8 ![3] bcast_S8_S1x1x1x8_3 : (⟨S8, .f32⟩ : BufTy).Contents (Elt F) → (⟨S1x1x1x8, .f32⟩ : BufTy).Contents (Elt F)),
    StableHlo.unary main_v3 main_v5 (broadcastInDim S32x256x256x8 ![0, 1, 2, 3] bcast_S32x256x256x1_S32x256x256x8_0_1_2_3 : (⟨S32x256x256x1, .f32⟩ : BufTy).Contents (Elt F) → (⟨S32x256x256x8, .f32⟩ : BufTy).Contents (Elt F)),
    StableHlo.unary main_v4 main_v6 (broadcastInDim S32x256x256x8 ![0, 1, 2, 3] bcast_S1x1x1x8_S32x256x256x8_0_1_2_3 : (⟨S1x1x1x8, .f32⟩ : BufTy).Contents (Elt F) → (⟨S32x256x256x8, .f32⟩ : BufTy).Contents (Elt F)),
    StableHlo.binary main_v5 main_v6 main_v7 (cmpf .oge : (⟨S32x256x256x8, .f32⟩ : BufTy).Contents (Elt F) → (⟨S32x256x256x8, .f32⟩ : BufTy).Contents (Elt F) → (⟨S32x256x256x8, .i1⟩ : BufTy).Contents (Elt F)),
    StableHlo.unary main_v2 main_v8 (broadcastInDim S32x256x256x1 ![0, 1, 2] bcast_S32x256x256_S32x256x256x1_0_1_2 : (⟨S32x256x256, .f32⟩ : BufTy).Contents (Elt F) → (⟨S32x256x256x1, .f32⟩ : BufTy).Contents (Elt F)),
    StableHlo.unary main_cst_0 main_v9 (broadcastInDim S1x1x1x8 ![3] bcast_S8_S1x1x1x8_3 : (⟨S8, .f32⟩ : BufTy).Contents (Elt F) → (⟨S1x1x1x8, .f32⟩ : BufTy).Contents (Elt F)),
    StableHlo.unary main_v8 main_v10 (broadcastInDim S32x256x256x8 ![0, 1, 2, 3] bcast_S32x256x256x1_S32x256x256x8_0_1_2_3 : (⟨S32x256x256x1, .f32⟩ : BufTy).Contents (Elt F) → (⟨S32x256x256x8, .f32⟩ : BufTy).Contents (Elt F)),
    StableHlo.unary main_v9 main_v11 (broadcastInDim S32x256x256x8 ![0, 1, 2, 3] bcast_S1x1x1x8_S32x256x256x8_0_1_2_3 : (⟨S1x1x1x8, .f32⟩ : BufTy).Contents (Elt F) → (⟨S32x256x256x8, .f32⟩ : BufTy).Contents (Elt F)),
    StableHlo.binary main_v10 main_v11 main_v12 (cmpf .ole : (⟨S32x256x256x8, .f32⟩ : BufTy).Contents (Elt F) → (⟨S32x256x256x8, .f32⟩ : BufTy).Contents (Elt F) → (⟨S32x256x256x8, .i1⟩ : BufTy).Contents (Elt F)),
    StableHlo.binary main_v7 main_v12 main_v13 (andi : (⟨S32x256x256x8, .i1⟩ : BufTy).Contents (Elt F) → (⟨S32x256x256x8, .i1⟩ : BufTy).Contents (Elt F) → (⟨S32x256x256x8, .i1⟩ : BufTy).Contents (Elt F)) ]
abbrev opsB : List (HloOp τ sig (Elt F)) :=
  [ StableHlo.nullary main_v14 (iotaInDim S8 32 0),
    StableHlo.nullary main_c (constantI S_ 32 1#32),
    StableHlo.unary main_c main_v15 (broadcastInDim S8 ![] bcast_S_S8 : (⟨S_, .i32⟩ : BufTy).Contents (Elt F) → (⟨S8, .i32⟩ : BufTy).Contents (Elt F)),
    StableHlo.binary main_v14 main_v15 main_v16 (addi : (⟨S8, .i32⟩ : BufTy).Contents (Elt F) → (⟨S8, .i32⟩ : BufTy).Contents (Elt F) → (⟨S8, .i32⟩ : BufTy).Contents (Elt F)),
    StableHlo.unary main_v13 main_v17 ((extui 32 · natLt_1_32) : (⟨S32x256x256x8, .i1⟩ : BufTy).Contents (Elt F) → (⟨S32x256x256x8, .i32⟩ : BufTy).Contents (Elt F)),
    StableHlo.unary main_v16 main_v18 (broadcastInDim S1x1x1x8 ![3] bcast_S8_S1x1x1x8_3 : (⟨S8, .i32⟩ : BufTy).Contents (Elt F) → (⟨S1x1x1x8, .i32⟩ : BufTy).Contents (Elt F)),
    StableHlo.unary main_v18 main_v19 (broadcastInDim S32x256x256x8 ![0, 1, 2, 3] bcast_S1x1x1x8_S32x256x256x8_0_1_2_3 : (⟨S1x1x1x8, .i32⟩ : BufTy).Contents (Elt F) → (⟨S32x256x256x8, .i32⟩ : BufTy).Contents (Elt F)),
    StableHlo.binary main_v17 main_v19 main_v20 (muli : (⟨S32x256x256x8, .i32⟩ : BufTy).Contents (Elt F) → (⟨S32x256x256x8, .i32⟩ : BufTy).Contents (Elt F) → (⟨S32x256x256x8, .i32⟩ : BufTy).Contents (Elt F)),
    StableHlo.nullary main_c_2 (constantI S_ 32 0#32),
    StableHlo.binary main_v20 main_c_2 main_v21 ((fun x v => Host.reduce IntOp.addi x v reducesTo_S32x256x256x8_S32x256x256_d3 h_S_) : (⟨S32x256x256x8, .i32⟩ : BufTy).Contents (Elt F) → (⟨S_, .i32⟩ : BufTy).Contents (Elt F) → (⟨S32x256x256, .i32⟩ : BufTy).Contents (Elt F)),
    StableHlo.nullary main_c_3 (constantI S_ 32 0#32),
    StableHlo.unary main_c_3 main_v22 (broadcastInDim S32x256x256 ![] bcast_S_S32x256x256 : (⟨S_, .i32⟩ : BufTy).Contents (Elt F) → (⟨S32x256x256, .i32⟩ : BufTy).Contents (Elt F)),
    StableHlo.binary main_v21 main_v22 main_v23 (cmpi .sgt : (⟨S32x256x256, .i32⟩ : BufTy).Contents (Elt F) → (⟨S32x256x256, .i32⟩ : BufTy).Contents (Elt F) → (⟨S32x256x256, .i1⟩ : BufTy).Contents (Elt F)),
    StableHlo.nullary main_c_4 (constantI S_ 32 1#32),
    StableHlo.unary main_c_4 main_v24 (broadcastInDim S32x256x256 ![] bcast_S_S32x256x256 : (⟨S_, .i32⟩ : BufTy).Contents (Elt F) → (⟨S32x256x256, .i32⟩ : BufTy).Contents (Elt F)),
    StableHlo.binary main_v21 main_v24 main_v25 (subi : (⟨S32x256x256, .i32⟩ : BufTy).Contents (Elt F) → (⟨S32x256x256, .i32⟩ : BufTy).Contents (Elt F) → (⟨S32x256x256, .i32⟩ : BufTy).Contents (Elt F)),
    StableHlo.nullary main_c_5 (constantI S_ 32 0#32),
    StableHlo.unary main_c_5 main_v26 (broadcastInDim S32x256x256 ![] bcast_S_S32x256x256 : (⟨S_, .i32⟩ : BufTy).Contents (Elt F) → (⟨S32x256x256, .i32⟩ : BufTy).Contents (Elt F)),
    StableHlo.binary main_v25 main_v26 main_v27 (maxsi : (⟨S32x256x256, .i32⟩ : BufTy).Contents (Elt F) → (⟨S32x256x256, .i32⟩ : BufTy).Contents (Elt F) → (⟨S32x256x256, .i32⟩ : BufTy).Contents (Elt F)) ]
abbrev opsC : List (HloOp τ sig (Elt F)) :=
  [ StableHlo.unary main_arg0 main_v28 ((transpose S32x256x256x8 [0, 2, 3, 1] · transposes_S32x8x256x256_S32x256x256x8_0_2_3_1) : (⟨S32x8x256x256, .f32⟩ : BufTy).Contents (Elt F) → (⟨S32x256x256x8, .f32⟩ : BufTy).Contents (Elt F)),
    StableHlo.TRef.nullary main_call0.cst (constant S_ .f32 0xFF800000#32),
    StableHlo.TRef.binary a28 main_call0.cst main_call0.v0 (fun x v => Host.reduce FloatOps.maximumf x v reducesTo_S32x256x256x8_S32x256x256_d3 h_S_),
    StableHlo.TRef.nullary main_call0.cst_0 (constant S_ .f32 0xFF800000#32),
    StableHlo.TRef.unary main_call0.cst_0 main_call0.v1 (broadcastInDim S32x256x256 ![] bcast_S_S32x256x256),
    StableHlo.TRef.binary main_call0.v1 main_call0.v0 main_call0.v2 maximumf,
    StableHlo.TRef.unary main_call0.v2 main_call0.v3 (broadcastInDim S32x256x256x1 ![0, 1, 2] bcast_S32x256x256_S32x256x256x1_0_1_2),
    StableHlo.TRef.unary main_call0.v3 main_call0.v4 (broadcastInDim S32x256x256x8 ![0, 1, 2, 3] bcast_S32x256x256x1_S32x256x256x8_0_1_2_3),
    StableHlo.TRef.binary a28 main_call0.v4 main_call0.v5 subf,
    StableHlo.TRef.unary main_call0.v5 main_call0.v6 Host.exp,
    StableHlo.TRef.nullary main_call0.cst_1 (constant S_ .f32 0x00000000#32),
    StableHlo.TRef.binary main_call0.v6 main_call0.cst_1 main_call0.v7 (fun x v => Host.reduceAdd x v reducesTo_S32x256x256x8_S32x256x256_d3 h_S_),
    StableHlo.TRef.unary main_call0.v7 main_call0.v8 (broadcastInDim S32x256x256x1 ![0, 1, 2] bcast_S32x256x256_S32x256x256x1_0_1_2),
    StableHlo.TRef.unary main_call0.v8 main_call0.v9 Host.log,
    StableHlo.TRef.unary main_call0.v9 main_call0.v10 (broadcastInDim S32x256x256x8 ![0, 1, 2, 3] bcast_S32x256x256x1_S32x256x256x8_0_1_2_3),
    StableHlo.TRef.binary main_call0.v5 main_call0.v10 main_call0.v11 subf ]
abbrev opsD : List (HloOp τ sig (Elt F)) :=
  [ StableHlo.unary main_v27 main_v30 (broadcastInDim S32x256x256x1 ![0, 1, 2] bcast_S32x256x256_S32x256x256x1_0_1_2 : (⟨S32x256x256, .i32⟩ : BufTy).Contents (Elt F) → (⟨S32x256x256x1, .i32⟩ : BufTy).Contents (Elt F)),
    StableHlo.TRef.nullary main_call1.c (constantI S_ 32 0#32),
    StableHlo.TRef.unary main_call1.c main_call1.v0 (broadcastInDim S32x256x256x1 ![] bcast_S_S32x256x256x1),
    StableHlo.TRef.binary a30 main_call1.v0 main_call1.v1 (cmpi .slt),
    StableHlo.TRef.nullary main_call1.c_0 (constantI S_ 32 8#32),
    StableHlo.TRef.unary main_call1.c_0 main_call1.v2 (broadcastInDim S32x256x256x1 ![] bcast_S_S32x256x256x1),
    StableHlo.TRef.binary a30 main_call1.v2 main_call1.v3 addi,
    StableHlo.TRef.ternary main_call1.v1 main_call1.v3 a30 main_call1.v4 select,
    StableHlo.TRef.reshape main_call1.v4 main_call1.v5 rfl shapeCasts_S32x256x256x1_S32x256x256x1x1,
    StableHlo.TRef.nullary main_call1.c_1 (constantI S1 32 7#32),
    StableHlo.TRef.nullary main_call1.c_2 (constantI S_ 32 0#32),
    StableHlo.TRef.unary main_call1.c_2 main_call1.v6 (broadcastInDim S32x256x256x1x1 ![] bcast_S_S32x256x256x1x1),
    StableHlo.TRef.binary main_call1.v5 main_call1.v6 main_call1.v7 (cmpi .sge),
    StableHlo.TRef.unary main_call1.c_1 main_call1.v8 (broadcastInDim S1x1x1x1x1 ![4] bcast_S1_S1x1x1x1x1_4),
    StableHlo.TRef.unary main_call1.v8 main_call1.v9 (broadcastInDim S32x256x256x1x1 ![0, 1, 2, 3, 4] bcast_S1x1x1x1x1_S32x256x256x1x1_0_1_2_3_4),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S32x256x256x1x1_S32x256x256x1_d4 h_S_),
    StableHlo.TRef.binary a29 main_call1.v5 main_call1.v13 (fun x i => Host.gather gather_S32x256x256x8_S32x256x256x1x1_S32x256x256x1_n_3_012_012_3_4_1111 x i),
    StableHlo.TRef.nullary main_call1.cst (constant S_ .f32 0x7FC00000#32),
    StableHlo.TRef.unary main_call1.cst main_call1.v14 (broadcastInDim S32x256x256x1 ![] bcast_S_S32x256x256x1),
    StableHlo.TRef.ternary main_call1.v12 main_call1.v13 main_call1.v14 main_call1.v15 select ]
abbrev opsE : List (HloOp τ sig (Elt F)) :=
  [ StableHlo.reshape main_v31 main_v32 rfl shapeCasts_S32x256x256x1_S32x256x256,
    StableHlo.unary main_v32 main_v33 (Host.negf : (⟨S32x256x256, .f32⟩ : BufTy).Contents (Elt F) → (⟨S32x256x256, .f32⟩ : BufTy).Contents (Elt F)),
    StableHlo.unary main_v23 main_v34 (uitofp .f32 : (⟨S32x256x256, .i1⟩ : BufTy).Contents (Elt F) → (⟨S32x256x256, .f32⟩ : BufTy).Contents (Elt F)),
    StableHlo.binary main_v33 main_v34 main_v35 (mulf : (⟨S32x256x256, .f32⟩ : BufTy).Contents (Elt F) → (⟨S32x256x256, .f32⟩ : BufTy).Contents (Elt F) → (⟨S32x256x256, .f32⟩ : BufTy).Contents (Elt F)),
    StableHlo.nullary main_cst_6 (constant S_ .f32 0x00000000#32),
    StableHlo.binary main_v35 main_cst_6 main_v36 ((fun x v => Host.reduceAdd x v reducesTo_S32x256x256_S_d0_1_2 h_S_) : (⟨S32x256x256, .f32⟩ : BufTy).Contents (Elt F) → (⟨S_, .f32⟩ : BufTy).Contents (Elt F) → (⟨S_, .f32⟩ : BufTy).Contents (Elt F)),
    StableHlo.nullary main_cst_7 (constant S_ .f32 0x42000000#32),
    StableHlo.binary main_v36 main_cst_7 main_v37 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = opsA ++ (opsB ++ (opsC ++ (opsD ++ opsE))) := rfl

/-- The contents after two lines run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

end Cert.ReferenceIdeal.RefValue

end
-- ==== Proof.RefStages.lean ====
/-
  The reference program's line read in five stages, each from arbitrary buffer contents: the density and the
  bins' bits, the class with its mask and label, the log-softmax of the transposed logits, the gather at the
  label, and the masked mean. Each stage's result is a closed term of the operations over the contents it
  reads; the whole line's result is their composition. The two parts that come from the outlined functions
  are first restated over the calls' buffers named directly: the same operations, so the same contents after.
-/
import proofs.«122373_j68341519614312_2_alg».proof.Proof.RefSegs

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The two calls' parts over the buffers named directly -/

/-- The log-softmax part with the call's buffers named directly. -/
abbrev opsC' : List (HloOp τ sig (Elt F)) :=
  [ StableHlo.unary main_arg0 main_v28 ((transpose S32x256x256x8 [0, 2, 3, 1] · transposes_S32x8x256x256_S32x256x256x8_0_2_3_1) : (⟨S32x8x256x256, .f32⟩ : BufTy).Contents (Elt F) → (⟨S32x256x256x8, .f32⟩ : BufTy).Contents (Elt F)),
    StableHlo.nullary main_call0_cst (constant S_ .f32 0xFF800000#32 : (⟨S_, .f32⟩ : BufTy).Contents (Elt F)),
    StableHlo.binary main_v28 main_call0_cst main_call0_v0 (fun x v => Host.reduce FloatOps.maximumf x v reducesTo_S32x256x256x8_S32x256x256_d3 h_S_ : (⟨S32x256x256x8, .f32⟩ : BufTy).Contents (Elt F) → (⟨S_, .f32⟩ : BufTy).Contents (Elt F) → (⟨S32x256x256, .f32⟩ : BufTy).Contents (Elt F)),
    StableHlo.nullary main_call0_cst_0 (constant S_ .f32 0xFF800000#32 : (⟨S_, .f32⟩ : BufTy).Contents (Elt F)),
    StableHlo.unary main_call0_cst_0 main_call0_v1 (broadcastInDim S32x256x256 ![] bcast_S_S32x256x256 : (⟨S_, .f32⟩ : BufTy).Contents (Elt F) → (⟨S32x256x256, .f32⟩ : BufTy).Contents (Elt F)),
    StableHlo.binary main_call0_v1 main_call0_v0 main_call0_v2 (maximumf : (⟨S32x256x256, .f32⟩ : BufTy).Contents (Elt F) → (⟨S32x256x256, .f32⟩ : BufTy).Contents (Elt F) → (⟨S32x256x256, .f32⟩ : BufTy).Contents (Elt F)),
    StableHlo.unary main_call0_v2 main_call0_v3 (broadcastInDim S32x256x256x1 ![0, 1, 2] bcast_S32x256x256_S32x256x256x1_0_1_2 : (⟨S32x256x256, .f32⟩ : BufTy).Contents (Elt F) → (⟨S32x256x256x1, .f32⟩ : BufTy).Contents (Elt F)),
    StableHlo.unary main_call0_v3 main_call0_v4 (broadcastInDim S32x256x256x8 ![0, 1, 2, 3] bcast_S32x256x256x1_S32x256x256x8_0_1_2_3 : (⟨S32x256x256x1, .f32⟩ : BufTy).Contents (Elt F) → (⟨S32x256x256x8, .f32⟩ : BufTy).Contents (Elt F)),
    StableHlo.binary main_v28 main_call0_v4 main_call0_v5 (subf : (⟨S32x256x256x8, .f32⟩ : BufTy).Contents (Elt F) → (⟨S32x256x256x8, .f32⟩ : BufTy).Contents (Elt F) → (⟨S32x256x256x8, .f32⟩ : BufTy).Contents (Elt F)),
    StableHlo.unary main_call0_v5 main_call0_v6 (Host.exp : (⟨S32x256x256x8, .f32⟩ : BufTy).Contents (Elt F) → (⟨S32x256x256x8, .f32⟩ : BufTy).Contents (Elt F)),
    StableHlo.nullary main_call0_cst_1 (constant S_ .f32 0x00000000#32 : (⟨S_, .f32⟩ : BufTy).Contents (Elt F)),
    StableHlo.binary main_call0_v6 main_call0_cst_1 main_call0_v7 (fun x v => Host.reduceAdd x v reducesTo_S32x256x256x8_S32x256x256_d3 h_S_ : (⟨S32x256x256x8, .f32⟩ : BufTy).Contents (Elt F) → (⟨S_, .f32⟩ : BufTy).Contents (Elt F) → (⟨S32x256x256, .f32⟩ : BufTy).Contents (Elt F)),
    StableHlo.unary main_call0_v7 main_call0_v8 (broadcastInDim S32x256x256x1 ![0, 1, 2] bcast_S32x256x256_S32x256x256x1_0_1_2 : (⟨S32x256x256, .f32⟩ : BufTy).Contents (Elt F) → (⟨S32x256x256x1, .f32⟩ : BufTy).Contents (Elt F)),
    StableHlo.unary main_call0_v8 main_call0_v9 (Host.log : (⟨S32x256x256x1, .f32⟩ : BufTy).Contents (Elt F) → (⟨S32x256x256x1, .f32⟩ : BufTy).Contents (Elt F)),
    StableHlo.unary main_call0_v9 main_call0_v10 (broadcastInDim S32x256x256x8 ![0, 1, 2, 3] bcast_S32x256x256x1_S32x256x256x8_0_1_2_3 : (⟨S32x256x256x1, .f32⟩ : BufTy).Contents (Elt F) → (⟨S32x256x256x8, .f32⟩ : BufTy).Contents (Elt F)),
    StableHlo.binary main_call0_v5 main_call0_v10 main_v29 (subf : (⟨S32x256x256x8, .f32⟩ : BufTy).Contents (Elt F) → (⟨S32x256x256x8, .f32⟩ : BufTy).Contents (Elt F) → (⟨S32x256x256x8, .f32⟩ : BufTy).Contents (Elt F)) ]

/-- The gather part with the call's buffers named directly. -/
abbrev opsD' : List (HloOp τ sig (Elt F)) :=
  [ StableHlo.unary main_v27 main_v30 (broadcastInDim S32x256x256x1 ![0, 1, 2] bcast_S32x256x256_S32x256x256x1_0_1_2 : (⟨S32x256x256, .i32⟩ : BufTy).Contents (Elt F) → (⟨S32x256x256x1, .i32⟩ : BufTy).Contents (Elt F)),
    StableHlo.nullary main_call1_c (constantI S_ 32 0#32 : (⟨S_, .i32⟩ : BufTy).Contents (Elt F)),
    StableHlo.unary main_call1_c main_call1_v0 (broadcastInDim S32x256x256x1 ![] bcast_S_S32x256x256x1 : (⟨S_, .i32⟩ : BufTy).Contents (Elt F) → (⟨S32x256x256x1, .i32⟩ : BufTy).Contents (Elt F)),
    StableHlo.binary main_v30 main_call1_v0 main_call1_v1 (cmpi .slt : (⟨S32x256x256x1, .i32⟩ : BufTy).Contents (Elt F) → (⟨S32x256x256x1, .i32⟩ : BufTy).Contents (Elt F) → (⟨S32x256x256x1, .i1⟩ : BufTy).Contents (Elt F)),
    StableHlo.nullary main_call1_c_0 (constantI S_ 32 8#32 : (⟨S_, .i32⟩ : BufTy).Contents (Elt F)),
    StableHlo.unary main_call1_c_0 main_call1_v2 (broadcastInDim S32x256x256x1 ![] bcast_S_S32x256x256x1 : (⟨S_, .i32⟩ : BufTy).Contents (Elt F) → (⟨S32x256x256x1, .i32⟩ : BufTy).Contents (Elt F)),
    StableHlo.binary main_v30 main_call1_v2 main_call1_v3 (addi : (⟨S32x256x256x1, .i32⟩ : BufTy).Contents (Elt F) → (⟨S32x256x256x1, .i32⟩ : BufTy).Contents (Elt F) → (⟨S32x256x256x1, .i32⟩ : BufTy).Contents (Elt F)),
    StableHlo.ternary main_call1_v1 main_call1_v3 main_v30 main_call1_v4 (select : (⟨S32x256x256x1, .i1⟩ : BufTy).Contents (Elt F) → (⟨S32x256x256x1, .i32⟩ : BufTy).Contents (Elt F) → (⟨S32x256x256x1, .i32⟩ : BufTy).Contents (Elt F) → (⟨S32x256x256x1, .i32⟩ : BufTy).Contents (Elt F)),
    StableHlo.reshape main_call1_v4 main_call1_v5 rfl shapeCasts_S32x256x256x1_S32x256x256x1x1,
    StableHlo.nullary main_call1_c_1 (constantI S1 32 7#32 : (⟨S1, .i32⟩ : BufTy).Contents (Elt F)),
    StableHlo.nullary main_call1_c_2 (constantI S_ 32 0#32 : (⟨S_, .i32⟩ : BufTy).Contents (Elt F)),
    StableHlo.unary main_call1_c_2 main_call1_v6 (broadcastInDim S32x256x256x1x1 ![] bcast_S_S32x256x256x1x1 : (⟨S_, .i32⟩ : BufTy).Contents (Elt F) → (⟨S32x256x256x1x1, .i32⟩ : BufTy).Contents (Elt F)),
    StableHlo.binary main_call1_v5 main_call1_v6 main_call1_v7 (cmpi .sge : (⟨S32x256x256x1x1, .i32⟩ : BufTy).Contents (Elt F) → (⟨S32x256x256x1x1, .i32⟩ : BufTy).Contents (Elt F) → (⟨S32x256x256x1x1, .i1⟩ : BufTy).Contents (Elt F)),
    StableHlo.unary main_call1_c_1 main_call1_v8 (broadcastInDim S1x1x1x1x1 ![4] bcast_S1_S1x1x1x1x1_4 : (⟨S1, .i32⟩ : BufTy).Contents (Elt F) → (⟨S1x1x1x1x1, .i32⟩ : BufTy).Contents (Elt F)),
    StableHlo.unary main_call1_v8 main_call1_v9 (broadcastInDim S32x256x256x1x1 ![0, 1, 2, 3, 4] bcast_S1x1x1x1x1_S32x256x256x1x1_0_1_2_3_4 : (⟨S1x1x1x1x1, .i32⟩ : BufTy).Contents (Elt F) → (⟨S32x256x256x1x1, .i32⟩ : BufTy).Contents (Elt F)),
    StableHlo.binary main_call1_v5 main_call1_v9 main_call1_v10 (cmpi .sle : (⟨S32x256x256x1x1, .i32⟩ : BufTy).Contents (Elt F) → (⟨S32x256x256x1x1, .i32⟩ : BufTy).Contents (Elt F) → (⟨S32x256x256x1x1, .i1⟩ : BufTy).Contents (Elt F)),
    StableHlo.binary main_call1_v7 main_call1_v10 main_call1_v11 (andi : (⟨S32x256x256x1x1, .i1⟩ : BufTy).Contents (Elt F) → (⟨S32x256x256x1x1, .i1⟩ : BufTy).Contents (Elt F) → (⟨S32x256x256x1x1, .i1⟩ : BufTy).Contents (Elt F)),
    StableHlo.nullary main_call1_c_3 (constantI S_ 1 1#1 : (⟨S_, .i1⟩ : BufTy).Contents (Elt F)),
    StableHlo.binary main_call1_v11 main_call1_c_3 main_call1_v12 (fun x v => Host.reduce IntOp.andi x v reducesTo_S32x256x256x1x1_S32x256x256x1_d4 h_S_ : (⟨S32x256x256x1x1, .i1⟩ : BufTy).Contents (Elt F) → (⟨S_, .i1⟩ : BufTy).Contents (Elt F) → (⟨S32x256x256x1, .i1⟩ : BufTy).Contents (Elt F)),
    StableHlo.binary main_v29 main_call1_v5 main_call1_v13 (fun x i => Host.gather gather_S32x256x256x8_S32x256x256x1x1_S32x256x256x1_n_3_012_012_3_4_1111 x i : (⟨S32x256x256x8, .f32⟩ : BufTy).Contents (Elt F) → (⟨S32x256x256x1x1, .i32⟩ : BufTy).Contents (Elt F) → (⟨S32x256x256x1, .f32⟩ : BufTy).Contents (Elt F)),
    StableHlo.nullary main_call1_cst (constant S_ .f32 0x7FC00000#32 : (⟨S_, .f32⟩ : BufTy).Contents (Elt F)),
    StableHlo.unary main_call1_cst main_call1_v14 (broadcastInDim S32x256x256x1 ![] bcast_S_S32x256x256x1 : (⟨S_, .f32⟩ : BufTy).Contents (Elt F) → (⟨S32x256x256x1, .f32⟩ : BufTy).Contents (Elt F)),
    StableHlo.ternary main_call1_v12 main_call1_v13 main_call1_v14 main_v31 (select : (⟨S32x256x256x1, .i1⟩ : BufTy).Contents (Elt F) → (⟨S32x256x256x1, .f32⟩ : BufTy).Contents (Elt F) → (⟨S32x256x256x1, .f32⟩ : BufTy).Contents (Elt F) → (⟨S32x256x256x1, .f32⟩ : BufTy).Contents (Elt F)) ]

attribute [local irreducible] Host.reduce Host.reduceAdd Host.gather shapeCast transpose broadcastInDim in
theorem opsC_eq : (opsC : List (HloOp τ sig (Elt F))) = opsC' := rfl

attribute [local irreducible] Host.reduce Host.reduceAdd Host.gather shapeCast transpose broadcastInDim in
theorem opsD_eq : (opsD : List (HloOp τ sig (Elt F))) = opsD' := rfl

/-! ## Stage A: the density and the bins' bits -/

attribute [local irreducible] Host.reduce Host.reduceAdd Host.gather shapeCast transpose broadcastInDim in
theorem stageA_v13 (V : Valuation τ sig (Elt F)) :
    after opsA V (main_v13 : DevRef τ sig) = inBinV (denV (V (main_arg1 : DevRef τ sig))) := by
  after_results_simp
  rfl

theorem stageA_arg0 (V : Valuation τ sig (Elt F)) :
    after opsA V (main_arg0 : DevRef τ sig) = V (main_arg0 : DevRef τ sig) := by
  after_results_simp

theorem stageA_arg1 (V : Valuation τ sig (Elt F)) :
    after opsA V (main_arg1 : DevRef τ sig) = V (main_arg1 : DevRef τ sig) := by
  after_results_simp

/-! ## Stage B: the class, its mask and label -/

attribute [local irreducible] Host.reduce Host.reduceAdd Host.gather shapeCast transpose broadcastInDim in
theorem stageB_v23 (V : Valuation τ sig (Elt F)) :
    after opsB V (main_v23 : DevRef τ sig) = maskV (V (main_v13 : DevRef τ sig)) := by
  after_results_simp
  rfl

attribute [local irreducible] Host.reduce Host.reduceAdd Host.gather shapeCast transpose broadcastInDim in
theorem stageB_v27 (V : Valuation τ sig (Elt F)) :
    after opsB V (main_v27 : DevRef τ sig) = labelV (V (main_v13 : DevRef τ sig)) := by
  after_results_simp
  rfl

theorem stageB_arg0 (V : Valuation τ sig (Elt F)) :
    after opsB V (main_arg0 : DevRef τ sig) = V (main_arg0 : DevRef τ sig) := by
  after_results_simp

theorem stageB_arg1 (V : Valuation τ sig (Elt F)) :
    after opsB V (main_arg1 : DevRef τ sig) = V (main_arg1 : DevRef τ sig) := by
  after_results_simp

/-! ## Stage C: the log-softmax of the transposed logits -/

attribute [local irreducible] Host.reduce Host.reduceAdd Host.gather shapeCast transpose broadcastInDim in
theorem stageC_v29 (V : Valuation τ sig (Elt F)) :
    after opsC V (main_v29 : DevRef τ sig) = logpV (xtV (V (main_arg0 : DevRef τ sig))) := by
  rw [opsC_eq]
  after_results_simp
  rfl

theorem stageC_arg0 (V : Valuation τ sig (Elt F)) :
    after opsC V (main_arg0 : DevRef τ sig) = V (main_arg0 : DevRef τ sig) := by
  rw [opsC_eq]
  after_results_simp

theorem stageC_arg1 (V : Valuation τ sig (Elt F)) :
    after opsC V (main_arg1 : DevRef τ sig) = V (main_arg1 : DevRef τ sig) := by
  rw [opsC_eq]
  after_results_simp

theorem stageC_v23 (V : Valuation τ sig (Elt F)) :
    after opsC V (main_v23 : DevRef τ sig) = V (main_v23 : DevRef τ sig) := by
  rw [opsC_eq]
  after_results_simp

theorem stageC_v27 (V : Valuation τ sig (Elt F)) :
    after opsC V (main_v27 : DevRef τ sig) = V (main_v27 : DevRef τ sig) := by
  rw [opsC_eq]
  after_results_simp

/-! ## Stage D: the gather at the label -/

attribute [local irreducible] Host.reduce Host.reduceAdd Host.gather shapeCast transpose broadcastInDim in
theorem stageD_v31 (V : Valuation τ sig (Elt F)) :
    after opsD V (main_v31 : DevRef τ sig) = takenV (V (main_v29 : DevRef τ sig)) (V (main_v27 : DevRef τ sig)) := by
  rw [opsD_eq]
  after_results_simp
  rfl

theorem stageD_arg0 (V : Valuation τ sig (Elt F)) :
    after opsD V (main_arg0 : DevRef τ sig) = V (main_arg0 : DevRef τ sig) := by
  rw [opsD_eq]
  after_results_simp

theorem stageD_arg1 (V : Valuation τ sig (Elt F)) :
    after opsD V (main_arg1 : DevRef τ sig) = V (main_arg1 : DevRef τ sig) := by
  rw [opsD_eq]
  after_results_simp

theorem stageD_v23 (V : Valuation τ sig (Elt F)) :
    after opsD V (main_v23 : DevRef τ sig) = V (main_v23 : DevRef τ sig) := by
  rw [opsD_eq]
  after_results_simp

/-! ## Stage E: the masked mean -/

attribute [local irreducible] Host.reduce Host.reduceAdd Host.gather shapeCast transpose broadcastInDim in
theorem stageE_v37 (V : Valuation τ sig (Elt F)) :
    after opsE V (main_v37 : DevRef τ sig) = lossV (V (main_v31 : DevRef τ sig)) (V (main_v23 : DevRef τ sig)) := by
  after_results_simp
  rfl

theorem stageE_arg0 (V : Valuation τ sig (Elt F)) :
    after opsE V (main_arg0 : DevRef τ sig) = V (main_arg0 : DevRef τ sig) := by
  after_results_simp

theorem stageE_arg1 (V : Valuation τ sig (Elt F)) :
    after opsE V (main_arg1 : DevRef τ sig) = V (main_arg1 : DevRef τ sig) := by
  after_results_simp

/-! ## The whole line -/

/-- The result buffer after the whole line: the stages composed over the two arguments' contents. -/
theorem after_v37 (V : Valuation τ sig (Elt F)) :
    after ops V (main_v37 : DevRef τ sig) = resultV (V (main_arg0 : DevRef τ sig)) (V (main_arg1 : DevRef τ sig)) := by
  rw [ops_eq, after_append, after_append, after_append, after_append, stageE_v37, stageD_v31, stageD_v23, stageC_v29, stageC_v27,
    stageC_v23, stageB_v27, stageB_v23, stageB_arg0, stageA_v13, stageA_arg0]
  rfl

theorem after_arg0 (V : Valuation τ sig (Elt F)) :
    after ops V (main_arg0 : DevRef τ sig) = V (main_arg0 : DevRef τ sig) := by
  rw [ops_eq, after_append, after_append, after_append, after_append, stageE_arg0, stageD_arg0, stageC_arg0, stageB_arg0, stageA_arg0]

theorem after_arg1 (V : Valuation τ sig (Elt F)) :
    after ops V (main_arg1 : DevRef τ sig) = V (main_arg1 : DevRef τ sig) := by
  rw [ops_eq, after_append, after_append, after_append, after_append, stageE_arg1, stageD_arg1, stageC_arg1, stageB_arg1, stageA_arg1]

end Cert.ReferenceIdeal.RefValue

end
-- ==== Proof.RefClass.lean ====
/-
  The reference's class side, read pixel by pixel at the ideal values: the density map with its unit axis dropped, the
  bins' bits, the class as a reduction over the bins, and the mask bit and label of the class.
-/
import proofs.«122373_j68341519614312_2_alg».proof.Proof.RefTerms
import proofs.«122373_j68341519614312_2_alg».proof.Proof.Spec
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.ValueIdx Cert.Zce

/-- The reduction over the channel / bin axis keeps the three pixel coordinates. -/
theorem red3 : S32x256x256x8.Reduces [3] S32x256x256 := by decide

/-- Pixel (b, r, q) with channel or bin k inserted on the last axis. -/
theorem lift3 (b : Fin 32) (r q : Fin 256) (k : Fin 8) : red3.lift (ix3 b r q) k = (ix4 b r q k : S32x256x256x8.Idx) := by
  funext a
  apply Fin.ext
  match a with
  | ⟨0, _⟩ => rfl
  | ⟨1, _⟩ => rfl
  | ⟨2, _⟩ => rfl
  | ⟨3, _⟩ => rfl

/-- A per-pixel array spread over a new last axis of 8 reads, at (b, r, q, k), the array at (b, r, q). -/
theorem spread8_apply {α : Type} (v : S32x256x256.Idx → α) (b : Fin 32) (r q : Fin 256) (k : Fin 8) :
    broadcastInDim S32x256x256x8 ![0, 1, 2, 3] bcast_S32x256x256x1_S32x256x256x8_0_1_2_3
      (broadcastInDim S32x256x256x1 ![0, 1, 2] bcast_S32x256x256_S32x256x256x1_0_1_2 v) (ix4 b r q k) = v (ix3 b r q) := by
  refine (broadcastInDim_apply _ _ _ (ix4 b r q k) (ix4 b r q (0 : Fin 1)) (fun a => ?_)).trans ?_
  · match a with
    | ⟨0, _⟩ => rfl
    | ⟨1, _⟩ => rfl
    | ⟨2, _⟩ => rfl
    | ⟨3, _⟩ => rfl
  · refine broadcastInDim_apply _ _ _ (ix4 b r q (0 : Fin 1)) (ix3 b r q) (fun a => ?_)
    match a with
    | ⟨0, _⟩ => rfl
    | ⟨1, _⟩ => rfl
    | ⟨2, _⟩ => rfl

/-- An array of 8 spread over every pixel reads, at (b, r, q, k), its k-th entry. -/
theorem table8_apply {α : Type} (w : S8.Idx → α) (b : Fin 32) (r q : Fin 256) (k : Fin 8) :
    broadcastInDim S32x256x256x8 ![0, 1, 2, 3] bcast_S1x1x1x8_S32x256x256x8_0_1_2_3
      (broadcastInDim S1x1x1x8 ![3] bcast_S8_S1x1x1x8_3 w) (ix4 b r q k) = w (ix1 k) := by
  refine (broadcastInDim_apply _ _ _ (ix4 b r q k) (ix4 (0 : Fin 1) (0 : Fin 1) (0 : Fin 1) k) (fun a => ?_)).trans ?_
  · match a with
    | ⟨0, _⟩ => rfl
    | ⟨1, _⟩ => rfl
    | ⟨2, _⟩ => rfl
    | ⟨3, _⟩ => rfl
  · refine broadcastInDim_apply _ _ _ (ix4 (0 : Fin 1) (0 : Fin 1) (0 : Fin 1) k) (ix1 k) (fun a => ?_)
    match a with
    | ⟨0, _⟩ => rfl

/-- The density map is the block-sum map of the second argument. -/
theorem gtV_eq (D : FVec Ideal S32x1x512x512 .f32) : gtV (F := Ideal) D = gtOf D := rfl

/-- The density with its unit axis dropped, at pixel (b, r, q). -/
theorem den_apply (D : FVec Ideal S32x1x512x512 .f32) (b : Fin 32) (r q : Fin 256) :
    denV (F := Ideal) D (ix3 b r q) = gtOf D (ix4 b (0 : Fin 1) r q) := by
  unfold denV
  rw [gtV_eq]
  refine shapeCast_apply _ _ (ix3 b r q) (ix4 b (0 : Fin 1) r q) ?_
  rw [Shape.rowMajor_val_four, Shape.rowMajor_val_three]
  show ((b.val * 1 + 0) * 256 + r.val) * 256 + q.val = (b.val * 256 + r.val) * 256 + q.val
  omega

/-- The two tables of bin ends are the eight lower and the eight upper words. -/
theorem lo8_apply (k : Fin 8) : lo8 (F := Ideal) (ix1 k) = Ideal.ofBits .f32 (loW k) := by
  show Ideal.ofBits .f32 (lit0 (S8.rowMajor (ix1 k))) = _
  refine congrArg (Ideal.ofBits .f32) ?_
  revert k; decide
theorem hi8_apply (k : Fin 8) : hi8 (F := Ideal) (ix1 k) = Ideal.ofBits .f32 (hiW k) := by
  show Ideal.ofBits .f32 (lit1 (S8.rowMajor (ix1 k))) = _
  refine congrArg (Ideal.ofBits .f32) ?_
  revert k; decide

/-- Bin k's bit at pixel (b, r, q): the pixel's density lies between the bin's ends. -/
theorem inBinV_apply (den : FVec Ideal S32x256x256 .f32) (b : Fin 32) (r q : Fin 256) (k : Fin 8) :
    inBinV den (ix4 b r q k) = inBin (den (ix3 b r q)) k := by
  unfold inBinV inBin
  show IntOp.andi (Ideal.cmp .oge (broadcastInDim S32x256x256x8 ![0, 1, 2, 3] bcast_S32x256x256x1_S32x256x256x8_0_1_2_3
        (broadcastInDim S32x256x256x1 ![0, 1, 2] bcast_S32x256x256_S32x256x256x1_0_1_2 den) (ix4 b r q k))
      (broadcastInDim S32x256x256x8 ![0, 1, 2, 3] bcast_S1x1x1x8_S32x256x256x8_0_1_2_3
        (broadcastInDim S1x1x1x8 ![3] bcast_S8_S1x1x1x8_3 (lo8 (F := Ideal))) (ix4 b r q k)))
    (Ideal.cmp .ole (broadcastInDim S32x256x256x8 ![0, 1, 2, 3] bcast_S32x256x256x1_S32x256x256x8_0_1_2_3
        (broadcastInDim S32x256x256x1 ![0, 1, 2] bcast_S32x256x256_S32x256x256x1_0_1_2 den) (ix4 b r q k))
      (broadcastInDim S32x256x256x8 ![0, 1, 2, 3] bcast_S1x1x1x8_S32x256x256x8_0_1_2_3
        (broadcastInDim S1x1x1x8 ![3] bcast_S8_S1x1x1x8_3 (hi8 (F := Ideal))) (ix4 b r q k))) = _
  rw [spread8_apply, table8_apply, table8_apply, lo8_apply, hi8_apply]

/-- Bin k's weight k + 1 at every pixel. -/
theorem wtsV_apply (b : Fin 32) (r q : Fin 256) (k : Fin 8) :
    wtsV (ix4 b r q k) = IntOp.addi (BitVec.ofNat 32 k.val) 1#32 := by
  unfold wtsV
  rw [table8_apply]
  rfl

/-- The class at pixel (b, r, q): the reduction over the bins of (bit, widened) · (k + 1), from 0. -/
theorem cls_apply (den : FVec Ideal S32x256x256 .f32) (b : Fin 32) (r q : Fin 256) :
    clsV (inBinV den) (ix3 b r q) = clsR (den (ix3 b r q)) := by
  unfold clsV clsR
  refine (Host.reduce_eq_fold_single IntOp.addi _ _ reducesTo_S32x256x256x8_S32x256x256_d3 red3 h_S_ (ix3 b r q)).trans ?_
  show (Finset.univ : Finset (Fin 8)).fold IntOp.addi 0#32
      ((muli (extui 32 (inBinV den) natLt_1_32) wtsV) ∘ red3.lift (ix3 b r q)) = _
  refine congrArg (fun f : Fin 8 → BitVec 32 => (Finset.univ : Finset (Fin 8)).fold IntOp.addi 0#32 f) (funext fun (k : Fin 8) => ?_)
  show (muli (extui 32 (inBinV den) natLt_1_32) wtsV) (red3.lift (ix3 b r q) k) = _
  rw [lift3]
  show IntOp.muli ((inBinV den (ix4 b r q k)).setWidth 32) (wtsV (ix4 b r q k)) = _
  rw [inBinV_apply, wtsV_apply]

/-- The mask bit at pixel (b, r, q). -/
theorem mask_apply (den : FVec Ideal S32x256x256 .f32) (b : Fin 32) (r q : Fin 256) :
    maskV (inBinV den) (ix3 b r q) = maskBit (clsR (den (ix3 b r q))) := by
  unfold maskV maskBit
  show IntOp.cmpi .sgt (clsV (inBinV den) (ix3 b r q)) 0#32 = _
  rw [cls_apply]

/-- The label at pixel (b, r, q). -/
theorem label_apply (den : FVec Ideal S32x256x256 .f32) (b : Fin 32) (r q : Fin 256) :
    labelV (inBinV den) (ix3 b r q) = labelOf (clsR (den (ix3 b r q))) := by
  unfold labelV labelOf
  show IntOp.maxsi (IntOp.subi (clsV (inBinV den) (ix3 b r q)) 1#32) 0#32 = _
  rw [cls_apply]

end Cert.ReferenceIdeal.RefValue

end
-- ==== Proof.RefGather.lean ====
/-
  The reference's gather along the channel axis, read at an index: with the three leading axes batching and the
  channel axis collapsed, result element (b, r, q, 0) is the operand at (b, r, q, c), c the start index at
  (b, r, q, 0, 0) read signed and clamped into 0 … 7.
-/
import proofs.«122373_j68341519614312_2_alg».proof.Proof.Gen.ReferenceIdeal
import proofs.«122373_j68341519614312_2_alg».proof.Proof.Spec
import Idealize.ShloMosaic.Lib.ValueIdx

namespace Cert.ReferenceIdeal.RefValue

open Cert.ReferenceIdeal Cert.ReferenceIdeal.Gen Idealize.ShloMosaic Idealize.ShloMosaic.ValueIdx

local notation "gd" => gather_S32x256x256x8_S32x256x256x1x1_S32x256x256x1_n_3_012_012_3_4_1111

theorem mem_batching_0 : (⟨0, by decide⟩ : Fin S32x256x256x8.rank) ∈ (gd).operandBatchingDims := by decide
theorem mem_batching_1 : (⟨1, by decide⟩ : Fin S32x256x256x8.rank) ∈ (gd).operandBatchingDims := by decide
theorem mem_batching_2 : (⟨2, by decide⟩ : Fin S32x256x256x8.rank) ∈ (gd).operandBatchingDims := by decide
theorem not_mem_batching_3 : (⟨3, by decide⟩ : Fin S32x256x256x8.rank) ∉ (gd).operandBatchingDims := by decide
theorem mem_collapsed_3 : (⟨3, by decide⟩ : Fin S32x256x256x8.rank) ∈ (gd).collapsedSliceDims := by decide
theorem mem_sim_3 : (⟨3, by decide⟩ : Fin S32x256x256x8.rank) ∈ (gd).startIndexMap := by decide

theorem gather_label_apply {α : Type} (x : S32x256x256x8.Idx → α) (idx : IVec S32x256x256x1x1 32)
    (b : Fin 32) (r q : Fin 256) :
    Host.gather gd x idx (ix4 b r q (0 : Fin 1))
      = x (ix4 b r q (Cert.Zce.clampR (idx (ix5 b r q (0 : Fin 1) (0 : Fin 1))))) := by
  unfold Host.gather
  refine congrArg x (funext fun a => Fin.ext ?_)
  match a with
  | ⟨0, h⟩ =>
    show (gd).start (ix4 b r q (0 : Fin 1)) idx ⟨0, h⟩ + (gd).batchCoord (ix4 b r q (0 : Fin 1)) ⟨0, h⟩
      + (gd).offCoord (ix4 b r q (0 : Fin 1)) ⟨0, h⟩ = b.val
    rw [GatherDims.start_batching _ _ _ _ mem_batching_0,
      GatherDims.offCoord_eq_zero _ _ _ (fun hk => ((GatherDims.mem_sKept _ _).mp hk).2 mem_batching_0),
      Nat.zero_add, Nat.add_zero]
    rfl
  | ⟨1, h⟩ =>
    show (gd).start (ix4 b r q (0 : Fin 1)) idx ⟨1, h⟩ + (gd).batchCoord (ix4 b r q (0 : Fin 1)) ⟨1, h⟩
      + (gd).offCoord (ix4 b r q (0 : Fin 1)) ⟨1, h⟩ = r.val
    rw [GatherDims.start_batching _ _ _ _ mem_batching_1,
      GatherDims.offCoord_eq_zero _ _ _ (fun hk => ((GatherDims.mem_sKept _ _).mp hk).2 mem_batching_1),
      Nat.zero_add, Nat.add_zero]
    rfl
  | ⟨2, h⟩ =>
    show (gd).start (ix4 b r q (0 : Fin 1)) idx ⟨2, h⟩ + (gd).batchCoord (ix4 b r q (0 : Fin 1)) ⟨2, h⟩
      + (gd).offCoord (ix4 b r q (0 : Fin 1)) ⟨2, h⟩ = q.val
    rw [GatherDims.start_batching _ _ _ _ mem_batching_2,
      GatherDims.offCoord_eq_zero _ _ _ (fun hk => ((GatherDims.mem_sKept _ _).mp hk).2 mem_batching_2),
      Nat.zero_add, Nat.add_zero]
    rfl
  | ⟨3, h⟩ =>
    show (gd).start (ix4 b r q (0 : Fin 1)) idx ⟨3, h⟩ + (gd).batchCoord (ix4 b r q (0 : Fin 1)) ⟨3, h⟩
      + (gd).offCoord (ix4 b r q (0 : Fin 1)) ⟨3, h⟩
      = (Cert.Zce.clampR (idx (ix5 b r q (0 : Fin 1) (0 : Fin 1)))).val
    rw [GatherDims.batchCoord_eq_zero _ _ _ not_mem_batching_3,
      GatherDims.offCoord_eq_zero _ _ _ (fun hk => ((GatherDims.mem_sKept _ _).mp hk).1 mem_collapsed_3)]
    simp only [Nat.add_zero]
    unfold GatherDims.start
    rw [dif_pos mem_sim_3]
    have hsi : (gd).siIdx (ix4 b r q (0 : Fin 1)) ⟨List.idxOf (⟨3, h⟩ : Fin S32x256x256x8.rank) (gd).startIndexMap,
        List.idxOf_lt_length_iff.2 mem_sim_3⟩ = ix5 b r q (0 : Fin 1) (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl

end Cert.ReferenceIdeal.RefValue
-- ==== Proof.RefTaken.lean ====
/-
  The reference's gather side, read pixel by pixel: the label moved into range, the start index, the in-range bit as a
  reduction by "and" over one element, and the log-softmax taken at the label or replaced by the NaN word's value.
-/
import proofs.«122373_j68341519614312_2_alg».proof.Proof.RefTerms
import proofs.«122373_j68341519614312_2_alg».proof.Proof.Spec
import proofs.«122373_j68341519614312_2_alg».proof.Proof.RefGather
import Idealize.ShloMosaic.Lib.ValueIdx
import Idealize.ShloMosaic.Lib.Pipeline.Value
import Idealize.ShloMosaic.PureOps.Reduce

noncomputable section

namespace Cert.ReferenceIdeal.RefValue

open Cert.ReferenceIdeal Cert.ReferenceIdeal.Gen Idealize.ShloMosaic Idealize.ShloMosaic.ValueIdx Cert.Zce

/-- A per-pixel array given a trailing unit axis reads, at (b, r, q, 0), the array at (b, r, q). -/
theorem unit3_apply {α : Type} (v : S32x256x256.Idx → α) (b : Fin 32) (r q : Fin 256) :
    broadcastInDim S32x256x256x1 ![0, 1, 2] bcast_S32x256x256_S32x256x256x1_0_1_2 v (ix4 b r q (0 : Fin 1))
      = v (ix3 b r q) := by
  refine broadcastInDim_apply _ _ _ (ix4 b r q (0 : Fin 1)) (ix3 b r q) (fun a => ?_)
  match a with
  | ⟨0, _⟩ => rfl
  | ⟨1, _⟩ => rfl
  | ⟨2, _⟩ => rfl

/-- The label with a unit axis, a negative one moved up by 8, at pixel (b, r, q). -/
theorem wrap_apply (lab : IVec S32x256x256 32) (b : Fin 32) (r q : Fin 256) :
    wrapV lab (ix4 b r q (0 : Fin 1)) = wrapR (lab (ix3 b r q)) := by
  unfold wrapV wrapR
  show Scalar.select
      (IntOp.cmpi .slt
        (broadcastInDim S32x256x256x1 ![0, 1, 2] bcast_S32x256x256_S32x256x256x1_0_1_2 lab (ix4 b r q (0 : Fin 1))) 0#32)
      (IntOp.addi
        (broadcastInDim S32x256x256x1 ![0, 1, 2] bcast_S32x256x256_S32x256x256x1_0_1_2 lab (ix4 b r q (0 : Fin 1))) 8#32)
      (broadcastInDim S32x256x256x1 ![0, 1, 2] bcast_S32x256x256_S32x256x256x1_0_1_2 lab (ix4 b r q (0 : Fin 1))) = _
  rw [unit3_apply]

/-- The gather's start index at pixel (b, r, q). -/
theorem idx_apply (lab : IVec S32x256x256 32) (b : Fin 32) (r q : Fin 256) :
    idxV lab (ix5 b r q (0 : Fin 1) (0 : Fin 1)) = wrapR (lab (ix3 b r q)) := by
  unfold idxV
  refine (shapeCast_apply _ _ (ix5 b r q (0 : Fin 1) (0 : Fin 1)) (ix4 b r q (0 : Fin 1)) ?_).trans (wrap_apply lab b r q)
  rw [Shape.rowMajor_val_four, Shape.rowMajor_val_five]
  show ((b.val * 256 + r.val) * 256 + q.val) * 1 + 0 = (((b.val * 256 + r.val) * 256 + q.val) * 1 + 0) * 1 + 0
  omega

/-- The reduction over the last unit axis keeps the four leading coordinates. -/
theorem red4 : S32x256x256x1x1.Reduces [4] S32x256x256x1 := by decide

/-- Index (b, r, q, 0) with the one coordinate of the last axis inserted. -/
theorem lift4 (b : Fin 32) (r q : Fin 256) (k : Fin 1) :
    red4.lift (ix4 b r q (0 : Fin 1)) k = (ix5 b r q (0 : Fin 1) k : S32x256x256x1x1.Idx) := by
  funext a
  apply Fin.ext
  match a with
  | ⟨0, _⟩ => rfl
  | ⟨1, _⟩ => rfl
  | ⟨2, _⟩ => rfl
  | ⟨3, _⟩ => rfl
  | ⟨4, _⟩ => rfl

/-- The in-range bit at pixel (b, r, q). -/
theorem inb_apply (lab : IVec S32x256x256 32) (b : Fin 32) (r q : Fin 256) :
    inbV lab (ix4 b r q (0 : Fin 1)) = inbR (wrapR (lab (ix3 b r q))) := by
  unfold inbV inbR
  refine (Host.reduce_eq_fold_single IntOp.andi _ _ reducesTo_S32x256x256x1x1_S32x256x256x1_d4 red4 h_S_
    (ix4 b r q (0 : Fin 1))).trans ?_
  show (Finset.univ : Finset (Fin 1)).fold IntOp.andi 1#1
      ((andi
        (cmpi .sge (idxV lab) (broadcastInDim S32x256x256x1x1 ![] bcast_S_S32x256x256x1x1 (constantI S_ 32 0#32)))
        (cmpi .sle (idxV lab)
          (broadcastInDim S32x256x256x1x1 ![0, 1, 2, 3, 4] bcast_S1x1x1x1x1_S32x256x256x1x1_0_1_2_3_4
            (broadcastInDim S1x1x1x1x1 ![4] bcast_S1_S1x1x1x1x1_4 (constantI S1 32 7#32))))) ∘
        red4.lift (ix4 b r q (0 : Fin 1))) = _
  refine congrArg (fun f : Fin 1 → BitVec 1 => (Finset.univ : Finset (Fin 1)).fold IntOp.andi 1#1 f)
    (funext fun (k : Fin 1) => ?_)
  obtain rfl : k = (0 : Fin 1) := Subsingleton.elim _ _
  show (andi
        (cmpi .sge (idxV lab) (broadcastInDim S32x256x256x1x1 ![] bcast_S_S32x256x256x1x1 (constantI S_ 32 0#32)))
        (cmpi .sle (idxV lab)
          (broadcastInDim S32x256x256x1x1 ![0, 1, 2, 3, 4] bcast_S1x1x1x1x1_S32x256x256x1x1_0_1_2_3_4
            (broadcastInDim S1x1x1x1x1 ![4] bcast_S1_S1x1x1x1x1_4 (constantI S1 32 7#32)))))
      (red4.lift (ix4 b r q (0 : Fin 1)) (0 : Fin 1)) = _
  rw [lift4]
  show IntOp.andi (IntOp.cmpi .sge (idxV lab (ix5 b r q (0 : Fin 1) (0 : Fin 1))) 0#32)
      (IntOp.cmpi .sle (idxV lab (ix5 b r q (0 : Fin 1) (0 : Fin 1))) 7#32) = _
  rw [idx_apply]

/-- The log-softmax taken at the label, or the NaN word's value outside the range, at pixel (b, r, q). -/
theorem taken_apply (lp : FVec Ideal S32x256x256x8 .f32) (lab : IVec S32x256x256 32) (b : Fin 32) (r q : Fin 256) :
    takenV (F := Ideal) lp lab (ix4 b r q (0 : Fin 1))
      = Scalar.select (inbR (wrapR (lab (ix3 b r q)))) (lp (ix4 b r q (clampR (wrapR (lab (ix3 b r q)))))) nan32 := by
  unfold takenV
  show Scalar.select (inbV lab (ix4 b r q (0 : Fin 1)))
      (Host.gather gather_S32x256x256x8_S32x256x256x1x1_S32x256x256x1_n_3_012_012_3_4_1111 lp (idxV lab)
        (ix4 b r q (0 : Fin 1))) nan32 = _
  rw [inb_apply, gather_label_apply, idx_apply]

end Cert.ReferenceIdeal.RefValue

end
-- ==== Proof.RefSoftmax.lean ====
/-
  The reference's log-softmax read at an index, at the ideal values: the logits with the channel axis moved last,
  their maximum over the channels as a fold from −∞, the logits minus it, the sum of the exponentials from zero,
  and the difference with its logarithm.
-/
import proofs.«122373_j68341519614312_2_alg».proof.Proof.RefClass
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx
open scoped BigOperators

/-! ## Broadcasts read at an index -/

/-- A per-pixel array given a unit channel axis reads the pixel's value. -/
theorem bc1_apply {α : Type} (m : S32x256x256.Idx → α) (b : Fin 32) (r q : Fin 256) (u : Fin 1) :
    broadcastInDim S32x256x256x1 ![0, 1, 2] bcast_S32x256x256_S32x256x256x1_0_1_2 m (ix4 b r q u) = m (ix3 b r q) :=
  broadcastInDim_apply _ _ m _ _ fun a => match a with
    | ⟨0, _⟩ => rfl
    | ⟨1, _⟩ => rfl
    | ⟨2, _⟩ => rfl

/-- A unit channel axis broadcast to the eight channels reads the unit channel's value. -/
theorem bc8_apply {α : Type} (m : S32x256x256x1.Idx → α) (b : Fin 32) (r q : Fin 256) (c : Fin 8) :
    broadcastInDim S32x256x256x8 ![0, 1, 2, 3] bcast_S32x256x256x1_S32x256x256x8_0_1_2_3 m (ix4 b r q c) = m (ix4 b r q (0 : Fin 1)) :=
  broadcastInDim_apply _ _ m _ _ fun a => match a with
    | ⟨0, _⟩ => rfl
    | ⟨1, _⟩ => rfl
    | ⟨2, _⟩ => rfl
    | ⟨3, _⟩ => rfl

/-! ## The log-softmax at an index -/

/-- The transposed logits at (b, r, q, c) are the logits at (b, c, r, q). -/
theorem xtV_apply (X : FVec Ideal S32x8x256x256 .f32) (b : Fin 32) (r q : Fin 256) (c : Fin 8) :
    xtV X (ix4 b r q c) = X (ix4 b c r q) := by
  unfold xtV
  exact transpose_apply _ X _ _ _ fun a => match a with
    | ⟨0, _⟩ => rfl
    | ⟨1, _⟩ => rfl
    | ⟨2, _⟩ => rfl
    | ⟨3, _⟩ => rfl

/-- The maximum over the channels at pixel (b, r, q): the fold of max from −∞, once more against −∞. -/
theorem maxV_apply (xt : FVec Ideal S32x256x256x8 .f32) (b : Fin 32) (r q : Fin 256) :
    maxV xt (ix3 b r q) = Cert.Zce.maxR (fun c => xt (ix4 b r q c)) := by
  unfold maxV Cert.Zce.maxR
  rw [maximumf_apply, Host.reduce_eq_fold_single FloatOps.maximumf xt _ reducesTo_S32x256x256x8_S32x256x256_d3 red3 h_S_ (ix3 b r q)]
  have hf : (xt ∘ red3.lift (ix3 b r q)) = fun c : Fin 8 => xt (ix4 b r q c) := funext fun c => congrArg xt (lift3 b r q c)
  rw [hf]
  rfl

/-- The shifted logits at (b, r, q, c). -/
theorem shiftV_apply (xt : FVec Ideal S32x256x256x8 .f32) (b : Fin 32) (r q : Fin 256) (c : Fin 8) :
    shiftV xt (ix4 b r q c) = xt (ix4 b r q c) - Cert.Zce.maxR (fun c => xt (ix4 b r q c)) := by
  unfold shiftV
  rw [subf_apply, bc8_apply, bc1_apply, maxV_apply]

/-- The sum of the exponentials at pixel (b, r, q): zero plus the sum over the eight channels. -/
theorem sumexpV_apply (xt : FVec Ideal S32x256x256x8 .f32) (b : Fin 32) (r q : Fin 256) :
    sumexpV xt (ix3 b r q)
      = Cert.Zce.z32 + ∑ k : Fin 8, Ideal.exp (xt (ix4 b r q k) - Cert.Zce.maxR (fun c => xt (ix4 b r q c))) := by
  unfold sumexpV Host.reduceAdd
  rw [Ideal.hostReduceAdd_def]
  refine (Ideal.hostReduceAdd_single _ red3 _ _ _).trans ?_
  show Cert.Zce.z32 + ∑ k : Fin 8, Host.exp (shiftV xt) (red3.lift (ix3 b r q) k) = _
  refine congrArg (Cert.Zce.z32 + ·) (Finset.sum_congr rfl fun k _ => ?_)
  rw [lift3]
  show Ideal.exp (shiftV xt (ix4 b r q k)) = _
  rw [shiftV_apply]

/-- The log-softmax at (b, r, q, c), over the transposed logits' channels. -/
theorem logpV_apply (xt : FVec Ideal S32x256x256x8 .f32) (b : Fin 32) (r q : Fin 256) (c : Fin 8) :
    logpV xt (ix4 b r q c) = Cert.Zce.logpR (fun c => xt (ix4 b r q c)) c := by
  unfold logpV Cert.Zce.logpR
  rw [subf_apply, bc8_apply, shiftV_apply]
  show _ - Ideal.log (broadcastInDim S32x256x256x1 ![0, 1, 2] bcast_S32x256x256_S32x256x256x1_0_1_2 (sumexpV xt) (ix4 b r q (0 : Fin 1))) = _
  rw [bc1_apply, sumexpV_apply]

/-- The log-softmax of the transposed logits at (b, r, q, c), over the logits' own channel axis. -/
theorem logp_apply (X : FVec Ideal S32x8x256x256 .f32) (b : Fin 32) (r q : Fin 256) (c : Fin 8) :
    logpV (xtV X) (ix4 b r q c) = Cert.Zce.logpR (fun ch => X (ix4 b ch r q)) c := by
  rw [logpV_apply]
  exact congrArg (fun f : Fin 8 → EReal => Cert.Zce.logpR f c) (funext fun ch => xtV_apply X b r q ch)

end Cert.ReferenceIdeal.RefValue

end
-- ==== Proof.LibSumIdx3.lean ====
/-
  A sum over the indices of a rank-three array is the triple sum over its coordinates.
-/
import Idealize.ShloMosaic.Lib.ValueIdx

open scoped BigOperators

namespace Cert.LibSumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibSumIdx3
-- ==== Proof.RefLoss.lean ====
/-
  The reference's result at the ideal values: (0 + the sum over all pixels of the reduce-and-gather pixel loss) / 32.

  Pixel (b, r, q)'s term of the final sum is minus the value taken from the log-softmax at the pixel's label, times the
  pixel's mask; the label and mask come from the class of the pixel's density, the log-softmax from the pixel's eight logits.
-/
import proofs.«122373_j68341519614312_2_alg».proof.Proof.RefClass
import proofs.«122373_j68341519614312_2_alg».proof.Proof.RefTaken
import proofs.«122373_j68341519614312_2_alg».proof.Proof.RefSoftmax
import proofs.«122373_j68341519614312_2_alg».proof.Proof.LibSumIdx3
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Zce

/-- A [32, 256, 256, 1] array with its unit axis dropped reads, at (b, r, q), the array at (b, r, q, 0). -/
theorem drop1_apply {α : Type} (v : S32x256x256x1.Idx → α) (b : Fin 32) (r q : Fin 256) :
    shapeCast S32x256x256 v shapeCasts_S32x256x256x1_S32x256x256 (ix3 b r q) = v (ix4 b r q (0 : Fin 1)) := by
  refine shapeCast_apply _ _ (ix3 b r q) (ix4 b r q (0 : Fin 1)) ?_
  rw [Shape.rowMajor_val_four, Shape.rowMajor_val_three]
  show ((b.val * 256 + r.val) * 256 + q.val) * 1 + 0 = (b.val * 256 + r.val) * 256 + q.val
  omega

/-- A pixel's term of the final sum, over any taken values and mask bits: minus the taken value, times the mask bit read unsigned. -/
theorem pixV_apply (tk : FVec Ideal S32x256x256x1 .f32) (mb : IVec S32x256x256 1) (b : Fin 32) (r q : Fin 256) :
    pixV tk mb (ix3 b r q) = (-(tk (ix4 b r q (0 : Fin 1)))) * FloatOps.uitofp (F := Ideal) .f32 (mb (ix3 b r q)) := by
  unfold pixV
  show (-(shapeCast S32x256x256 tk shapeCasts_S32x256x256x1_S32x256x256 (ix3 b r q))) * FloatOps.uitofp (F := Ideal) .f32 (mb (ix3 b r q)) = _
  rw [drop1_apply]

/-- One pixel's term of the final sum. -/
theorem pix_apply (X : FVec Ideal S32x8x256x256 .f32) (D : FVec Ideal S32x1x512x512 .f32) (b : Fin 32) (r q : Fin 256) :
    pixV (takenV (logpV (xtV X)) (labelV (inBinV (denV D)))) (maskV (inBinV (denV D))) (ix3 b r q) = pixelsR X D b r q := by
  refine (pixV_apply _ _ b r q).trans ?_
  rw [taken_apply, label_apply, mask_apply, den_apply, logp_apply]
  rfl

/-- THE RESULT: the program's term of its two arguments is the loss of the reduce-and-gather pixel losses. -/
theorem resultV_eq (X : FVec Ideal S32x8x256x256 .f32) (D : FVec Ideal S32x1x512x512 .f32) :
    resultV (F := Ideal) X D = lossOf (pixelsR X D) := by
  unfold resultV lossV
  funext j
  show Ideal.div (Ideal.hostReduceAdd reducesTo_S32x256x256_S_d0_1_2
        (pixV (takenV (logpV (xtV X)) (labelV (inBinV (denV D)))) (maskV (inBinV (denV D)))) (Ideal.ofBits .f32 0x00000000#32) j)
      (Ideal.ofBits .f32 0x42000000#32)
    = Ideal.div (z32 + ∑ b : Fin 32, ∑ r : Fin 256, ∑ q : Fin 256, pixelsR X D b r q) (Ideal.ofBits .f32 0x42000000#32)
  rw [Ideal.hostReduceAdd_total reducesTo_S32x256x256_S_d0_1_2 (fun b => b.elim0)]
  refine congrArg (fun s => Ideal.div (z32 + s) (Ideal.ofBits .f32 0x42000000#32)) ?_
  rw [Cert.LibSumIdx3.sum_idx3]
  exact Finset.sum_congr rfl fun b _ => Finset.sum_congr rfl fun r _ => Finset.sum_congr rfl fun q _ => pix_apply X D b r q

end Cert.ReferenceIdeal.RefValue

end
-- ==== Proof.RefValue.lean ====
/-
  The reference program's run and its value: every weakly fair execution terminates with the result buffer at
  the loss of the reduce-and-gather spelling over the two arguments' launch contents, the arguments unchanged.
  The run gives each buffer as the fold of the program's operations; the fold at the result buffer is the
  stages' composed term; and that term, at the ideal values, is the loss pixel by pixel.
-/
import proofs.«122373_j68341519614312_2_alg».proof.Proof.RefStages
import proofs.«122373_j68341519614312_2_alg».proof.Proof.RefLoss

noncomputable section

namespace Cert.ReferenceIdeal.RefValue

open Cert.ReferenceIdeal Cert.ReferenceIdeal.Gen Idealize.ShloMosaic Idealize.ShloMosaic.TcCoe Idealize.SL.Sem Idealize.ShloMosaic.StableHlo

/-- On every device, at the ideal values, from any memory with zero counters: every weakly fair execution of the
    reference program terminates with the result buffer at the loss over the two arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v37)
          = Cert.Zce.lossOf (Cert.Zce.pixelsR (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨(h c main_v37).trans ((after_v37 (launchContents m c)).trans (resultV_eq _ _)),
        (h c main_arg0).trans (after_arg0 (launchContents m c)),
        (h c main_arg1).trans (after_arg1 (launchContents m c))⟩)
    (run_main m ρ)

end Cert.ReferenceIdeal.RefValue

end
-- ==== Proof.lean ====
/-
  The two idealized programs compute one loss.

  The kernel program ends with (0 + the sum over all pixels of the channel-by-channel pixel loss) / 32 and the reference
  with (0 + the sum of the reduce-and-gather pixel loss) / 32, both over the same logits and the same density map. For
  finite logits the two pixel losses agree: the density falls in at most one bin, so the class, mask and label agree and
  the label is one of the eight channels; the running maximum is the reduced maximum; the two sums of exponentials have the
  same eight terms; and for real numbers m, s and any extended real L, (m + L) − s = −((s − m) − L). The logits are finite
  by the precondition. Nothing is asked of the density map.
-/
import proofs.«122373_j68341519614312_2_alg».proof.Defs
import proofs.«122373_j68341519614312_2_alg».proof.Proof.Gen.Kernel
import proofs.«122373_j68341519614312_2_alg».proof.Proof.Gen.Kernel.Frame
import proofs.«122373_j68341519614312_2_alg».proof.Proof.Gen.KernelIdeal
import proofs.«122373_j68341519614312_2_alg».proof.Proof.Gen.KernelIdeal.Frame
import proofs.«122373_j68341519614312_2_alg».proof.Proof.Gen.ReferenceIdeal
import proofs.«122373_j68341519614312_2_alg».proof.Proof.Gen.Pre_finite_inputs
import proofs.«122373_j68341519614312_2_alg».proof.Proof.KRun
import proofs.«122373_j68341519614312_2_alg».proof.Proof.Pixels
import proofs.«122373_j68341519614312_2_alg».proof.Proof.PreFinite
import proofs.«122373_j68341519614312_2_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ
/-- The idealized kernel runs and keeps its arguments. -/
theorem frame_ki : Cert.frame_KernelIdeal := fun m ρ _ => Cert.KernelIdeal.Gen.frame m ρ
/-- The idealized reference runs and keeps its arguments: its run, the result forgotten. -/
theorem frame_ri : Cert.frame_ReferenceIdeal := fun m ρ _ =>
  (θ_run Cert.ReferenceIdeal.defs _ _).mono (fun _ h c => (h c).2) (Cert.ReferenceIdeal.RefValue.run m ρ)

/-- From memories agreeing on the arguments, with finite inputs, both idealized programs end at one loss. -/
theorem algebraic : Cert.algebraic_KernelIdeal_ReferenceIdeal := by
  intro m ρ m' ρ' hpre hagree
  refine ⟨fun c => Cert.Zce.lossOf (Cert.Zce.pixelsK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]
  exact (Cert.Zce.loss_eq _ _ (Cert.Zce.finite_of_pre _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
